-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x200 : S_.BroadcastsInDim S128x200 (![] : Fin 0 → Fin S128x200.rank)
  reducesTo_S128x200_S_d0_1 : S128x200.ReducesTo [0, 1] S_
  bcast_S_S200x300 : S_.BroadcastsInDim S200x300 (![] : Fin 0 → Fin S200x300.rank)
  reducesTo_S200x300_S_d0_1 : S200x300.ReducesTo [0, 1] S_
  bcast_S_S300x200 : S_.BroadcastsInDim S300x200 (![] : Fin 0 → Fin S300x200.rank)
  reducesTo_S300x200_S_d0_1 : S300x200.ReducesTo [0, 1] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S300x200 .f32) (main_arg5 : FVec F S200x100 .f32) (main_arg6 : FVec F S100 .f32) (main_v13 : IVec S_ 1) (main_v16 : IVec S200x300 1) : IVec S_ 1 :=
  let main_c_5 : IVec S_ 1 := constantI S_ 1 1#1
  let main_v17 : IVec S_ 1 := (fun x v => Host.reduce IntOp.andi x v reducesTo_S200x300_S_d0_1 h_S_) main_v16 main_c_5
  let main_v18 : IVec S_ 1 := andi main_v13 main_v17
  let main_v19 : FVec F S300x200 .f32 := Host.absf main_arg4
  let main_cst_6 : FVec F S_ .f32 := constant S_ .f32 0x7F800000#32
  let main_v20 : FVec F S300x200 .f32 := broadcastInDim S300x200 ![] bcast_S_S300x200 main_cst_6
  let main_v21 : IVec S300x200 1 := cmpf .olt main_v19 main_v20
  let main_c_7 : IVec S_ 1 := constantI S_ 1 1#1
  let main_v22 : IVec S_ 1 := (fun x v => Host.reduce IntOp.andi x v reducesTo_S300x200_S_d0_1 h_S_) main_v21 main_c_7
  let main_v23 : IVec S_ 1 := andi main_v18 main_v22
  let main_v24 : FVec F S200x100 .f32 := Host.absf main_arg5
  let main_cst_8 : FVec F S_ .f32 := constant S_ .f32 0x7F800000#32
  let main_v25 : FVec F S200x100 .f32 := broadcastInDim S200x100 ![] bcast_S_S200x100 main_cst_8
  let main_v26 : IVec S200x100 1 := cmpf .olt main_v24 main_v25
  let main_c_9 : IVec S_ 1 := constantI S_ 1 1#1
  let main_v27 : IVec S_ 1 := (fun x v => Host.reduce IntOp.andi x v reducesTo_S200x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x200 .f32) (main_arg3 : FVec F S200x300 .f32) (main_arg4 : FVec F S300x200 .f32) (main_arg5 : FVec F S200x100 .f32) (main_arg6 : FVec F S100 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x200 .f32 := Host.absf main_arg2
  let main_cst_2 : FVec F S_ .f32 := constant S_ .f32 0x7F800000#32
  let main_v10 : FVec F S128x200 .f32 := broadcastInDim S128x200 ![] bcast_S_S128x200 main_cst_2
  let main_v11 : IVec S128x200 1 := cmpf .olt main_v9 main_v10
  let main_c_3 : IVec S_ 1 := constantI S_ 1 1#1
  let main_v12 : IVec S_ 1 := (fun x v => Host.reduce IntOp.andi x v reducesTo_S128x200_S_d0_1 h_S_) main_v11 main_c_3
  let main_v13 : IVec S_ 1 := andi main_v8 main_v12
  let main_v14 : FVec F S200x300 .f32 := Host.absf main_arg3
  let main_cst_4 : FVec F S_ .f32 := constant S_ .f32 0x7F800000#32
  let main_v15 : FVec F S200x300 .f32 := broadcastInDim S200x300 ![] bcast_S_S200x300 main_cst_4
  let main_v16 : IVec S200x300 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S_ : Shape := ⟨0, ![]⟩
abbrev S128x256 : Shape := ⟨2, ![128, 256]⟩
abbrev S256x384 : Shape := ⟨2, ![256, 384]⟩
abbrev S384x256 : Shape := ⟨2, ![384, 256]⟩
abbrev S256x128 : Shape := ⟨2, ![256, 128]⟩
abbrev S128 : Shape := ⟨1, ![128]⟩
abbrev S1x128 : Shape := ⟨2, ![1, 128]⟩
abbrev S10000x256 : Shape := ⟨2, ![10000, 256]⟩
abbrev S10000x100 : Shape := ⟨2, ![10000, 100]⟩
abbrev S200x10000 : Shape := ⟨2, ![200, 10000]⟩
abbrev S200x256 : Shape := ⟨2, ![200, 256]⟩
abbrev S200x128 : Shape := ⟨2, ![200, 128]⟩
abbrev S400x10000 : Shape := ⟨2, ![400, 10000]⟩
abbrev S400x256 : Shape := ⟨2, ![400, 256]⟩
abbrev S400x384 : Shape := ⟨2, ![400, 384]⟩
abbrev S400x128 : Shape := ⟨2, ![400, 128]⟩

abbrev nBuf : Space → Nat
  | .hbm => 33
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x200, .f32⟩
  | .hbm, ⟨3, _⟩ => ⟨S200x300, .f32⟩
  | .hbm, ⟨4, _⟩ => ⟨S300x200, .f32⟩
  | .hbm, ⟨5, _⟩ => ⟨S200x100, .f32⟩
  | .hbm, ⟨6, _⟩ => ⟨S100, .f32⟩
  | .hbm, ⟨7, _⟩ => ⟨S_, .i32⟩
  | .hbm, ⟨8, _⟩ => ⟨S_, .f32⟩
  | .hbm, ⟨9, _⟩ => ⟨S128x256, .f32⟩
  | .hbm, ⟨10, _⟩ => ⟨S128x256, .bf16⟩
  | .hbm, ⟨11, _⟩ => ⟨S_, .i32⟩
  | .hbm, ⟨12, _⟩ => ⟨S_, .f32⟩
  | .hbm, ⟨13, _⟩ => ⟨S256x384, .f32⟩
  | .hbm, ⟨14, _⟩ => ⟨S256x384, .bf16⟩
  | .hbm, ⟨15, _⟩ => ⟨S_, .i32⟩
  | .hbm, ⟨16, _⟩ => ⟨S_, .f32⟩
  | .hbm, ⟨17, _⟩ => ⟨S384x256, .f32⟩
  | .hbm, ⟨18, _⟩ => ⟨S384x256, .bf16⟩
  | .hbm, ⟨19, _⟩ => ⟨S_, .i32⟩
  | .hbm, ⟨20, _⟩ => ⟨S_, .f32⟩
  | .hbm, ⟨21, _⟩ => ⟨S256x128, .f32⟩
  | .hbm, ⟨22, _⟩ => ⟨S256x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S10000x128, .bf16⟩
  | .hbm, ⟨28, _⟩ => ⟨S10000x256, .bf16⟩
  | .hbm, ⟨29, _⟩ => ⟨S10000x10000, .bf16⟩
  | .hbm, ⟨30, _⟩ => ⟨S10000x256, .bf16⟩
  | .hbm, ⟨31, _⟩ => ⟨S10000x128, .f32⟩
  | .hbm, ⟨32, _⟩ => ⟨S10000x100, .f32⟩
  | .local _ .vmem, ⟨0, _⟩ => ⟨S200x10000, .f32⟩
  | .local _ .vmem, ⟨1, _⟩ => ⟨S200x10000, .f32⟩
  | .local _ .vmem, ⟨2, _⟩ => ⟨S10000x128, .bf16⟩
  | .local _ .vmem, ⟨3, _⟩ => ⟨S128x256, .bf16⟩
  | .local _ .vmem, ⟨4, _⟩ => ⟨S200x256, .bf16⟩
  | .local _ .vmem, ⟨5, _⟩ => ⟨S200x256, .bf16⟩
  | .local _ .vmem, ⟨6, _⟩ => ⟨S200x10000, .bf16⟩
  | .local _ .vmem, ⟨7, _⟩ => ⟨S200x10000, .bf16⟩
  | .local _ .vmem, ⟨8, _⟩ => ⟨S400x10000, .bf16⟩
  | .local _ .vmem, ⟨9, _⟩ => ⟨S400x10000, .bf16⟩
  | .local _ .vmem, ⟨10, _⟩ => ⟨S10000x256, .bf16⟩
  | .local _ .vmem, ⟨11, _⟩ => ⟨S256x384, .bf16⟩
  | .local _ .vmem, ⟨12, _⟩ => ⟨S384x256, .bf16⟩
  | .local _ .vmem, ⟨13, _⟩ => ⟨S400x256, .bf16⟩
  | .local _ .vmem, ⟨14, _⟩ => ⟨S400x256, .bf16⟩
  | .local _ .vmem, ⟨15, _⟩ => ⟨S400x10000, .bf16⟩
  | .local _ .vmem, ⟨16, _⟩ => ⟨S400x10000, .bf16⟩
  | .local _ .vmem, ⟨17, _⟩ => ⟨S10000x256, .bf16⟩
  | .local _ .vmem, ⟨18, _⟩ => ⟨S256x128, .bf16⟩
  | .local _ .vmem, ⟨19, _⟩ => ⟨S1x128, .f32⟩
  | .local _ .vmem, ⟨20, _⟩ => ⟨S400x128, .f32⟩
  | .local _ .vmem, ⟨21, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_call2_v0 : Ref sig .tc := ⟨.hbm, 16, rfl⟩
abbrev main_call0_v4 : Ref sig .tc := ⟨.hbm, 17, rfl⟩
abbrev main_call0_v5 : Ref sig .tc := ⟨.hbm, 18, rfl⟩
abbrev main_call0_c_2 : Ref sig .tc := ⟨.hbm, 19, rfl⟩
abbrev main_call0_call3_v0 : Ref sig .tc := ⟨.hbm, 20, rfl⟩
abbrev main_call0_v6 : Ref sig .tc := ⟨.hbm, 21, rfl⟩
abbrev main_call0_v7 : Ref sig .tc := ⟨.hbm, 22, rfl⟩
abbrev main_call0_c_3 : Ref sig .tc := ⟨.hbm, 23, rfl⟩
abbrev main_call0_call4_v0 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11_0 : Ref sig .tc := ⟨.hbm, 28, rfl⟩
abbrev main_call0_v11_1 : Ref sig .tc := ⟨.hbm, 29, rfl⟩
abbrev main_call0_v12 : Ref sig .tc := ⟨.hbm, 30, rfl⟩
abbrev main_call0_v13 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  pads_S128x200_S128x256_000_0560 : S128x200.Pads (![0, 0] : Fin 2 → Nat) ![0, 56] ![0, 0] S128x256
  h_S_ : 0 < S_.numel
  bitsLt_bf16_f32 : FTy.bits .bf16 < FTy.bits .f32
  pads_S200x300_S256x384_0560_0840 : S200x300.Pads (![0, 0] : Fin 2 → Nat) ![56, 84] ![0, 0] S256x384
  pads_S300x200_S384x256_0840_0560 : S300x200.Pads (![0, 0] : Fin 2 → Nat) ![84, 56] ![0, 0] S384x256
  pads_S200x100_S256x128_0560_0280 : S200x100.Pads (![0, 0] : Fin 2 → Nat) ![56, 28] ![0, 0] S256x128
  pads_S100_S128_0280 : S100.Pads (![0] : Fin 1 → Nat) ![28] ![0] S128
  shapeCasts_S128_S1x128 : S128.ShapeCasts S1x128
  slices_S10000x128_S10000x100_0_0 : S10000x128.Slices ![0, 0] S10000x100
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S200x10000_S10000x128_S200x128_1_0_0_1_n_n_wf : DotDims.WF S200x10000 S10000x128 S200x128 [1] [0] [0] [1] [] []
  dot_S200x128_S128x256_S200x256_1_0_0_1_n_n_wf : DotDims.WF S200x128 S128x256 S200x256 [1] [0] [0] [1] [] []
  dot_S400x10000_S10000x256_S400x256_1_0_0_1_n_n_wf : DotDims.WF S400x10000 S10000x256 S400x256 [1] [0] [0] [1] [] []
  dot_S400x256_S256x384_S400x384_1_0_0_1_n_n_wf : DotDims.WF S400x256 S256x384 S400x384 [1] [0] [0] [1] [] []
  dot_S400x384_S384x256_S400x256_1_0_0_1_n_n_wf : DotDims.WF S400x384 S384x256 S400x256 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .bf16 = 32 ∨ (Rect.block (s := S10000x256) S200x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .bf16 = 32 ∨ (Rect.block (s := S10000x10000) S200x10000.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x384.size a ≤ S256x384.size a
  hwx1_2 : ∀ i : grid1.Coords, EltTy.bits .bf16 = 32 ∨ (Rect.block (s := S256x384) S256x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x256.size a ≤ S384x256.size a
  hwx1_3 : ∀ i : grid1.Coords, EltTy.bits .bf16 = 32 ∨ (Rect.block (s := S384x256) S384x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x384_S400x384_1_0_0_1_n_n : DotDims S400x256 S256x384 S400x384 where
  lhsContracting := [1]
  rhsContracting := [0]
  lhsNonContracting := [0]
  rhsNonContracting := [1]
  lhsBatch := []
  rhsBatch := []
  wf := dot_S400x256_S256x384_S400x384_1_0_0_1_n_n_wf
def dot_S400x384_S384x256_S400x256_1_0_0_1_n_n : DotDims S400x384 S384x256 S400x256 where
  lhsContracting := [1]
  rhsContracting := [0]
  lhsNonContracting := [0]
  rhsNonContracting := [1]
  lhsBatch := []
  rhsBatch := []
  wf := dot_S400x384_S384x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11_0) S200x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11_1) S200x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v11_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v11_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3) S256x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S384x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v12) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v11_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v7) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v13) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x200 : Shape := ⟨2, ![128, 200]⟩
abbrev S200x300 : Shape := ⟨2, ![200, 300]⟩
abbrev S300x200 : Shape := ⟨2, ![300, 200]⟩
abbrev S200x100 : Shape := ⟨2, ![200, 100]⟩
abbrev S100 : Shape := ⟨1, ![100]⟩
abbrev S10000x200 : Shape := ⟨2, ![10000, 200]⟩
abbrev S_ : Shape := ⟨0, ![]⟩
abbrev S10000x300 : Shape := ⟨2, ![10000, 300]⟩
abbrev S10000x100 : Shape := ⟨2, ![10000, 100]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x200, .f32⟩
  | .hbm, ⟨3, _⟩ => ⟨S200x300, .f32⟩
  | .hbm, ⟨4, _⟩ => ⟨S300x200, .f32⟩
  | .hbm, ⟨5, _⟩ => ⟨S200x100, .f32⟩
  | .hbm, ⟨6, _⟩ => ⟨S100, .f32⟩
  | .hbm, ⟨7, _⟩ => ⟨S10000x200, .f32⟩
  | .hbm, ⟨8, _⟩ => ⟨S10000x200, .f32⟩
  | .hbm, ⟨9, _⟩ => ⟨S_, .f32⟩
  | .hbm, ⟨10, _⟩ => ⟨S10000x200, .f32⟩
  | .hbm, ⟨11, _⟩ => ⟨S10000x200, .f32⟩
  | .hbm, ⟨12, _⟩ => ⟨S10000x300, .f32⟩
  | .hbm, ⟨13, _⟩ => ⟨S10000x300, .f32⟩
  | .hbm, ⟨14, _⟩ => ⟨S_, .f32⟩
  | .hbm, ⟨15, _⟩ => ⟨S10000x300, .f32⟩
  | .hbm, ⟨16, _⟩ => ⟨S10000x300, .f32⟩
  | .hbm, ⟨17, _⟩ => ⟨S10000x200, .f32⟩
  | .hbm, ⟨18, _⟩ => ⟨S10000x200, .f32⟩
  | .hbm, ⟨19, _⟩ => ⟨S_, .f32⟩
  | .hbm, ⟨20, _⟩ => ⟨S10000x200, .f32⟩
  | .hbm, ⟨21, _⟩ => ⟨S10000x200, .f32⟩
  | .hbm, ⟨22, _⟩ => ⟨S10000x100, .f32⟩
  | .hbm, ⟨23, _⟩ => ⟨S1x100, .f32⟩
  | .hbm, ⟨24, _⟩ => ⟨S10000x100, .f32⟩
  | .hbm, ⟨25, _⟩ => ⟨S10000x100, .f32⟩
  | .hbm, ⟨26, _⟩ => ⟨S_, .f32⟩
  | .hbm, ⟨27, _⟩ => ⟨S10000x100, .f32⟩
  | .hbm, ⟨28, _⟩ => ⟨S10000x100, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S10000x200 : S_.BroadcastsInDim S10000x200 (![] : Fin 0 → Fin S10000x200.rank)
  bcast_S_S10000x300 : S_.BroadcastsInDim S10000x300 (![] : Fin 0 → Fin S10000x300.rank)
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  bcast_S_S10000x100 : S_.BroadcastsInDim S10000x100 (![] : Fin 0 → Fin S10000x100.rank)
  dot_S10000x128_S128x200_S10000x200_1_0_0_1_n_n_wf : DotDims.WF S10000x128 S128x200 S10000x200 [1] [0] [0] [1] [] []
  dot_S10000x10000_S10000x200_S10000x200_1_0_0_1_n_n_wf : DotDims.WF S10000x10000 S10000x200 S10000x200 [1] [0] [0] [1] [] []
  dot_S10000x200_S200x300_S10000x300_1_0_0_1_n_n_wf : DotDims.WF S10000x200 S200x300 S10000x300 [1] [0] [0] [1] [] []
  dot_S10000x10000_S10000x300_S10000x300_1_0_0_1_n_n_wf : DotDims.WF S10000x10000 S10000x300 S10000x300 [1] [0] [0] [1] [] []
  dot_S10000x300_S300x200_S10000x200_1_0_0_1_n_n_wf : DotDims.WF S10000x300 S300x200 S10000x200 [1] [0] [0] [1] [] []
  dot_S10000x200_S200x100_S10000x100_1_0_0_1_n_n_wf : DotDims.WF S10000x200 S200x100 S10000x100 [1] [0] [0] [1] [] []

variable [Facts₀]

def dot_S10000x128_S128x200_S10000x200_1_0_0_1_n_n : DotDims S10000x128 S128x200 S10000x200 where
  lhsContracting := [1]
  rhsContracting := [0]
  lhsNonContracting := [0]
  rhsNonContracting := [1]
  lhsBatch := []
  rhsBatch := []
  wf := dot_S10000x128_S128x200_S10000x200_1_0_0_1_n_n_wf
def dot_S10000x10000_S10000x200_S10000x200_1_0_0_1_n_n : DotDims S10000x10000 S10000x200 S10000x200 where
  lhsContracting := [1]
  rhsContracting := [0]
  lhsNonContracting := [0]
  rhsNonContracting := [1]
  lhsBatch := []
  rhsBatch := []
  wf := dot_S10000x10000_S10000x200_S10000x200_1_0_0_1_n_n_wf
def dot_S10000x200_S200x300_S10000x300_1_0_0_1_n_n : DotDims S10000x200 S200x300 S10000x300 where
  lhsContracting := [1]
  rhsContracting := [0]
  lhsNonContracting := [0]
  rhsNonContracting := [1]
  lhsBatch := []
  rhsBatch := []
  wf := dot_S10000x200_S200x300_S10000x300_1_0_0_1_n_n_wf
def dot_S10000x10000_S10000x300_S10000x300_1_0_0_1_n_n : DotDims S10000x10000 S10000x300 S10000x300 where
  lhsContracting := [1]
  rhsContracting := [0]
  lhsNonContracting := [0]
  rhsNonContracting := [1]
  lhsBatch := []
  rhsBatch := []
  wf := dot_S10000x10000_S10000x300_S10000x300_1_0_0_1_n_n_wf
def dot_S10000x300_S300x200_S10000x200_1_0_0_1_n_n : DotDims S10000x300 S300x200 S10000x200 where
  lhsContracting := [1]
  rhsContracting := [0]
  lhsNonContracting := [0]
  rhsNonContracting := [1]
  lhsBatch := []
  rhsBatch := []
  wf := dot_S10000x300_S300x200_S10000x200_1_0_0_1_n_n_wf
def dot_S10000x200_S200x100_S10000x100_1_0_0_1_n_n : DotDims S10000x200 S200x100 S10000x100 where
  lhsContracting := [1]
  rhsContracting := [0]
  lhsNonContracting := [0]
  rhsNonContracting := [1]
  lhsBatch := []
  rhsBatch := []
  wf := dot_S10000x200_S200x100_S10000x100_1_0_0_1_n_n_wf

class Facts : Prop extends Facts₀ where

variable [Facts]
-- ==== Proof.KernelRun.lean ====
/-
  The idealized kernel program's run with its result array named: every weakly fair execution terminates, nothing
  faulting, the argument arrays end as launched, and the result array ends at the contents the last boundary of
  @main's five segments (host operations, three kernel regions, host operations) holds for it.
-/
import proofs.«114735_g18906446037451_cont_8to1_851_3_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its segments, the last thread state read against the final state: the result array at the
    last boundary's contents, each argument array walked back to the launch memory. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Gcn.KRun

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.Payloads.lean ====
/-
  The three kernel bodies' arithmetic, read at an entry of the block each stores.

  Layer 1 stores relu((a x) w) for its strip a of the adjacency; layer 2 stores relu((a h) w2) w3; layer 3 stores
  relu(relu(a g) wo + b), the bias row copied down the rows. A change of float format is the identity on the
  extended reals, a product into a zero accumulator is the plain sum over the contracted axis, and the splat of
  the zero word is 0.
-/
import proofs.«114735_g18906446037451_cont_8to1_851_3_alg».proof.Proof.Gen.KernelIdeal.Skeleton
import proofs.«114735_g18906446037451_cont_8to1_851_3_alg».proof.Proof.LibDotPlain
import Idealize.ShloMosaic.Lib.Pipeline.Value
import Idealize.ShloMosaic.Lib.ValueIdx
import Idealize.ShloMosaic.Lib.ValueLayout

noncomputable section

namespace Cert.Gcn.Pay

open Cert.KernelIdeal Cert.KernelIdeal.Gen Idealize.ShloMosaic Idealize.ShloMosaic.ValueIdx
open scoped BigOperators

theorem plain_200_10000_128 : DotPlain.IsPlain dot_S200x10000_S10000x128_S200x128_1_0_0_1_n_n := ⟨rfl, rfl, rfl, rfl, rfl, rfl⟩
theorem plain_200_128_256 : DotPlain.IsPlain dot_S200x128_S128x256_S200x256_1_0_0_1_n_n := ⟨rfl, rfl, rfl, rfl, rfl, rfl⟩

/-- The zero word is the real number 0. -/
theorem zero_word : (Scalar.ofBits (F := Ideal) .f32 0x00000000#32 : EReal) = 0 := Ideal.ofBits_zero_f32

/-- Layer 1's copy of its adjacency strip is the strip itself. -/
theorem pay0_copy (x0 : Vec Ideal S200x10000 .f32) : k0_pay1 x0 = x0 := rfl

/-- Layer 1's hidden block at (p, q): relu of row p of (a x) against column q of w. -/
theorem pay0_hidden (x0 : Vec Ideal S200x10000 .f32) (x1 : Vec Ideal S10000x128 .bf16) (x2 : Vec Ideal S128x256 .bf16)
    (p : Fin 200) (q : Fin 256) :
    k0_pay2 x0 x1 x2 (ix2 p q)
      = max (∑ l : Fin 128, (∑ k : Fin 10000, x0 (ix2 p k) * x1 (ix2 k l)) * x2 (ix2 l q)) 0 := by
  unfold k0_pay2
  rw [truncf_apply, maximumf_apply, broadcast_apply, zero_word]
  rw [DotPlain.matmul_zero_apply plain_200_128_256]
  refine congrArg (fun z => max z 0) (Finset.sum_congr rfl fun l _ => ?_)
  rw [truncf_apply, DotPlain.matmul_zero_apply plain_200_10000_128, shapeCast_self, shapeCast_self, pay0_copy]

end Cert.Gcn.Pay

end
-- ==== Proof.Region0.lean ====
/-
  Kernel region 0 (layer 1) as one function of the arrays it finds.

  The region runs over 50 row blocks of 200 rows. At block t it loads rows 200t … 200t+199 of the adjacency, the
  whole feature matrix and the whole padded weight, and writes back (a) the same rows of the adjacency, unchanged
  (a change of float format is the identity on the extended reals), and (b) rows 200t … of the hidden matrix
  relu((a x) w). Row r of either output is written by block r / 200 and by no other, so after the region the two
  output arrays hold, entry by entry, the adjacency itself and relu((A X) W).
-/
import proofs.«114735_g18906446037451_cont_8to1_851_3_alg».proof.Proof.Gen.KernelIdeal.Frame
import proofs.«114735_g18906446037451_cont_8to1_851_3_alg».proof.Proof.Payloads
import Idealize.ShloMosaic.Lib.Pipeline.Value
import Idealize.ShloMosaic.Lib.ValueIdx

noncomputable section

namespace Cert.Gcn.Region0

open Cert.KernelIdeal Cert.KernelIdeal.Gen Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Entry (i, j) of layer 1's hidden matrix: relu of row i of (A X) against column j of the weight. -/
def layer (A : S10000x10000.Idx → EReal) (X : S10000x128.Idx → EReal) (W : S128x256.Idx → EReal)
    (i : Fin 10000) (j : Fin 256) : EReal :=
  max (∑ l : Fin 128, (∑ k : Fin 10000, A (ix2 i k) * X (ix2 k l)) * W (ix2 l j)) 0

/-- The hidden matrix as an array. -/
def G (A : S10000x10000.Idx → EReal) (X : S10000x128.Idx → EReal) (W : S128x256.Idx → EReal) :
    S10000x256.Idx → EReal := fun j => layer A X W (j 0) (j 1)

/-- The index maps over the grid: the adjacency and both outputs move with the block, the features and the weight stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Block t of the adjacency is its rows 200t … 200t + 199. -/
theorem blk_adj (c : Dev nD) (t : Fin cfg0.N) (x : S200x10000.Idx) (k : S10000x10000.Idx)
    (hk0 : (k 0).val = 200 * t.val + (x 0).val) (hk1 : (k 1).val = (x 1).val) :
    (iblk0 V c 0 t : Vec Ideal S200x10000 .f32) x = (V c main_arg1 : S10000x10000.Idx → EReal) k := by
  obtain ⟨e0, e1, -⟩ := idx_facts t
  unfold iblk0
  rw [View.read_apply]
  show V c main_arg1 _ = V c main_arg1 _
  refine congrArg _ ?_
  funext a
  apply Fin.ext
  match a with
  | ⟨0, _⟩ => show win0_0.index t 0 * 200 + 1 * (x 0).val = (k 0).val; rw [e0, hk0]; omega
  | ⟨1, _⟩ => show win0_0.index t 1 * 10000 + 1 * (x 1).val = (k 1).val; rw [e1, hk1]; omega

/-- The features' block is the whole array at every point. -/
theorem blk_feat (c : Dev nD) (t : Fin cfg0.N) (x : S10000x128.Idx) :
    (iblk0 V c 1 t : Vec Ideal S10000x128 .bf16) x = (V c main_call0_v10 : S10000x128.Idx → EReal) x := by
  obtain ⟨-, -, e0, e1, -⟩ := idx_facts t
  unfold iblk0
  rw [View.read_apply]
  show V c main_call0_v10 _ = V c main_call0_v10 _
  refine congrArg _ ?_
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The weight's block is the whole array at every point. -/
theorem blk_w (c : Dev nD) (t : Fin cfg0.N) (x : S128x256.Idx) :
    (iblk0 V c 2 t : Vec Ideal S128x256 .bf16) x = (V c main_call0_v1 : S128x256.Idx → EReal) x := by
  obtain ⟨-, -, -, -, e0, e1, -⟩ := idx_facts t
  unfold iblk0
  rw [View.read_apply]
  show V c main_call0_v1 _ = V c main_call0_v1 _
  refine congrArg _ ?_
  funext a
  apply Fin.ext
  match a with
  | ⟨0, _⟩ => show win0_2.index t 0 * 128 + 1 * (x 0).val = (x 0).val; rw [e0]; omega
  | ⟨1, _⟩ => show win0_2.index t 1 * 256 + 1 * (x 1).val = (x 1).val; rw [e1]; omega

/-- The body's hidden block at y is the hidden matrix at the entry y sits at: row 200t + y₀, column y₁. -/
theorem hidden_at (c : Dev nD) (t : Fin cfg0.N) (y : S200x256.Idx) (i : S10000x256.Idx)
    (hi0 : (i 0).val = 200 * t.val + (y 0).val) (hi1 : (i 1).val = (y 1).val) :
    k0_pay2 (iblk0 V c 0 t) (iblk0 V c 1 t) (iblk0 V c 2 t) y
      = G (V c main_arg1) (V c main_call0_v10) (V c main_call0_v1) i := by
  obtain ⟨p, q, rfl⟩ : ∃ (p : Fin 200) (q : Fin 256), y = ix2 p q := ⟨y 0, y 1, eq_ix2 y⟩
  obtain ⟨i0, i1, rfl⟩ : ∃ (i0 : Fin 10000) (i1 : Fin 256), i = ix2 i0 i1 := ⟨i 0, i 1, eq_ix2 i⟩
  obtain rfl : i1 = q := Fin.ext hi1
  rw [Pay.pay0_hidden]
  unfold G layer
  refine congrArg (fun z => max z 0) (Finset.sum_congr rfl fun l _ => ?_)
  rw [blk_w V c t (ix2 l i1)]
  refine congrArg (fun z => z * _) (Finset.sum_congr rfl fun k _ => ?_)
  rw [blk_adj V c t (ix2 p k) (ix2 i0 k) hi0 rfl, blk_feat V c t (ix2 k l)]

/-- What block t writes back of the hidden matrix is block t of G. -/
theorem flushed_hidden (c : Dev nD) (t : Fin cfg0.N) :
    (dat0 V c).flushed 3 t
      = ((cfg0.win 3).blk t).view.read (Elt Ideal) (G (V c main_arg1) (V c main_call0_v10) (V c main_call0_v1)) := by
  obtain ⟨-, -, -, -, -, -, e0, e1, -⟩ := idx_facts t
  show (cfg0.win 3).cut (grid0.coords t) ((dat0 V c).after 3 t) = _
  rw [after0_3]
  unfold out0_3
  rw [View.canon_unit_zero hz]
  simp only [View.ld_unit_zero (S := S200x10000) hz, View.ld_unit_zero (S := S10000x128) hz, View.ld_unit_zero (S := S128x256) hz]
  funext y
  refine hidden_at V c t y (((cfg0.win 3).blk t).view.emb y) ?_ ?_
  · show win0_3.index t 0 * 200 + 1 * (y 0).val = 200 * t.val + (y 0).val
    rw [e0]; omega
  · show win0_3.index t 1 * 256 + 1 * (y 1).val = (y 1).val
    rw [e1]; omega

/-- Row r of the hidden matrix is in the block of point r / 200. -/
theorem cover_hidden (i : S10000x256.Idx) :
    ∃ t : Fin cfg0.N, (cfg0.win 3).flush t = true ∧ i ∈ ((cfg0.win 3).blk t).view.set := by
  have hN : cfg0.N = 50 := N_0
  have h0 : (i 0).val < 10000 := (i 0).isLt
  have h1 : (i 1).val < 256 := (i 1).isLt
  have ht : (i 0).val / 200 < cfg0.N := by rw [hN]; omega
  obtain ⟨-, -, -, -, -, -, e0, e1, -⟩ := idx_facts ⟨(i 0).val / 200, ht⟩
  refine ⟨⟨(i 0).val / 200, ht⟩, flush0_3 _, ?_⟩
  show i ∈ ((View.whole main_call0_v11_0).slice (win0_3.rect ⟨(i 0).val / 200, ht⟩)).set
  rw [View.set_slice_whole, Rect.mem_set_unit]
  intro a
  match a with
  | ⟨0, _⟩ =>
    show win0_3.index ⟨(i 0).val / 200, ht⟩ 0 * 200 ≤ (i 0).val ∧ (i 0).val < win0_3.index ⟨(i 0).val / 200, ht⟩ 0 * 200 + 200
    rw [e0]; show (i 0).val / 200 * 200 ≤ (i 0).val ∧ (i 0).val < (i 0).val / 200 * 200 + 200; omega
  | ⟨1, _⟩ =>
    show win0_3.index ⟨(i 0).val / 200, ht⟩ 1 * 256 ≤ (i 1).val ∧ (i 1).val < win0_3.index ⟨(i 0).val / 200, ht⟩ 1 * 256 + 256
    rw [e1]; omega

/-- After the region the hidden array holds relu((A X) W), entry by entry. -/
theorem final_hidden (c : Dev nD) :
    (dat0 V c).arrAt 3 cfg0.N = G (V c main_arg1) (V c main_call0_v10) (V c main_call0_v1) :=
  (dat0 V c).arrAt_eq_of_cover 3 _ (fun t _ => flushed_hidden V c t) cover_hidden

/-- What block t writes back of the adjacency's copy is block t of the adjacency. -/
theorem flushed_copy (c : Dev nD) (t : Fin cfg0.N) :
    (dat0 V c).flushed 4 t
      = ((cfg0.win 4).blk t).view.read (Elt Ideal) (V c main_arg1 : S10000x10000.Idx → EReal) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S200x10000) hz]
  rw [Pay.pay0_copy]
  funext y
  refine blk_adj V c t y (((cfg0.win 4).blk t).view.emb y) ?_ ?_
  · show win0_4.index t 0 * 200 + 1 * (y 0).val = 200 * t.val + (y 0).val
    rw [e0]; omega
  · show win0_4.index t 1 * 10000 + 1 * (y 1).val = (y 1).val
    rw [e1]; omega

/-- Row r of the copy is in the block of point r / 200. -/
theorem cover_copy (i : S10000x10000.Idx) :
    ∃ t : Fin cfg0.N, (cfg0.win 4).flush t = true ∧ i ∈ ((cfg0.win 4).blk t).view.set := by
  have hN : cfg0.N = 50 := N_0
  have h0 : (i 0).val < 10000 := (i 0).isLt
  have h1 : (i 1).val < 10000 := (i 1).isLt
  have ht : (i 0).val / 200 < cfg0.N := by rw [hN]; omega
  obtain ⟨-, -, -, -, -, -, -, -, e0, e1⟩ := idx_facts ⟨(i 0).val / 200, ht⟩
  refine ⟨⟨(i 0).val / 200, ht⟩, flush0_4 _, ?_⟩
  show i ∈ ((View.whole main_call0_v11_1).slice (win0_4.rect ⟨(i 0).val / 200, ht⟩)).set
  rw [View.set_slice_whole, Rect.mem_set_unit]
  intro a
  match a with
  | ⟨0, _⟩ =>
    show win0_4.index ⟨(i 0).val / 200, ht⟩ 0 * 200 ≤ (i 0).val ∧ (i 0).val < win0_4.index ⟨(i 0).val / 200, ht⟩ 0 * 200 + 200
    rw [e0]; show (i 0).val / 200 * 200 ≤ (i 0).val ∧ (i 0).val < (i 0).val / 200 * 200 + 200; omega
  | ⟨1, _⟩ =>
    show win0_4.index ⟨(i 0).val / 200, ht⟩ 1 * 10000 ≤ (i 1).val ∧ (i 1).val < win0_4.index ⟨(i 0).val / 200, ht⟩ 1 * 10000 + 10000
    rw [e1]; omega

/-- After the region the copy holds the adjacency, entry by entry. -/
theorem final_copy (c : Dev nD) :
    (dat0 V c).arrAt 4 cfg0.N = (V c main_arg1 : S10000x10000.Idx → EReal) :=
  (dat0 V c).arrAt_eq_of_cover 4 _ (fun t _ => flushed_copy V c t) cover_copy

end Cert.Gcn.Region0

end
-- ==== Proof.Region1.lean ====
/-
  The value of the second kernel region: what its output array holds after the region, as one function of the
  arrays the region reads, index by index.

  The region walks the adjacency in 25 row blocks of 400 rows. At each block it multiplies the strip a of the
  adjacency by the whole layer-1 hidden matrix h, multiplies by the second weight w2, takes relu, and multiplies
  by the third weight w3; every product goes into a zero accumulator, so at the ideal instance it is the plain
  sum over the contracted axis, and every change of float format is the identity. Entry (p, j) of the block stored
  at point t is therefore entry (400 t + p, j) of the whole-array function
      G(i, j) = ∑ q, relu(∑ p, (∑ k, A(i, k) H(k, p)) W2(p, q)) W3(q, j),
  because the strip's row p is the adjacency's row 400 t + p and the other three windows are the whole arrays.
  The 25 blocks tile the 10000 rows, so the output array ends holding G.
-/
import proofs.«114735_g18906446037451_cont_8to1_851_3_alg».proof.Proof.Gen.KernelIdeal.Frame
import proofs.«114735_g18906446037451_cont_8to1_851_3_alg».proof.Proof.Payloads
import Idealize.ShloMosaic.Lib.Pipeline.Value
import Idealize.ShloMosaic.Lib.ValueIdx
import Idealize.ShloMosaic.Lib.ValueLayout

set_option maxRecDepth 16384

noncomputable section

namespace Cert.Gcn.Region1

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- One row of the fused second layer: relu(((A H) W2)) W3 at (i, j). -/
def layer (A : S10000x10000.Idx → EReal) (H : S10000x256.Idx → EReal) (W2 : S256x384.Idx → EReal)
    (W3 : S384x256.Idx → EReal) (i : Fin 10000) (j : Fin 256) : EReal :=
  ∑ q : Fin 384, max (∑ p : Fin 256, (∑ k : Fin 10000, A (ix2 i k) * H (ix2 k p)) * W2 (ix2 p q)) 0 * W3 (ix2 q j)

/-- The fused second layer as an array. -/
def G (A : S10000x10000.Idx → EReal) (H : S10000x256.Idx → EReal) (W2 : S256x384.Idx → EReal)
    (W3 : S384x256.Idx → EReal) : S10000x256.Idx → EReal :=
  fun j => layer A H W2 W3 (j 0) (j 1)

theorem plain_400_10000_256 : DotPlain.IsPlain dot_S400x10000_S10000x256_S400x256_1_0_0_1_n_n := ⟨rfl, rfl, rfl, rfl, rfl, rfl⟩
theorem plain_400_256_384 : DotPlain.IsPlain dot_S400x256_S256x384_S400x384_1_0_0_1_n_n := ⟨rfl, rfl, rfl, rfl, rfl, rfl⟩
theorem plain_400_384_256 : DotPlain.IsPlain dot_S400x384_S384x256_S400x256_1_0_0_1_n_n := ⟨rfl, rfl, rfl, rfl, rfl, rfl⟩

/-- The body's stored block at (p, j): row p of relu(((a h) w2)) against column j of w3. -/
theorem pay1 (x0 : Vec Ideal S400x10000 .bf16) (x1 : Vec Ideal S10000x256 .bf16) (x2 : Vec Ideal S256x384 .bf16)
    (x3 : Vec Ideal S384x256 .bf16) (p : Fin 400) (j : Fin 256) :
    k1_pay1 x0 x1 x2 x3 (ix2 p j)
      = ∑ q : Fin 384, max (∑ l : Fin 256, (∑ k : Fin 10000, x0 (ix2 p k) * x1 (ix2 k l)) * x2 (ix2 l q)) 0
          * x3 (ix2 q j) := by
  unfold k1_pay1
  simp only [shapeCast_self]
  rw [truncf_apply, DotPlain.matmul_zero_apply plain_400_384_256]
  refine Finset.sum_congr rfl fun q _ => ?_
  refine congrArg (fun z => z * x3 (ix2 q j)) ?_
  rw [truncf_apply, maximumf_apply, broadcast_apply, Pay.zero_word, DotPlain.matmul_zero_apply plain_400_256_384]
  refine congrArg (fun z => max z 0) (Finset.sum_congr rfl fun l _ => ?_)
  rw [truncf_apply, DotPlain.matmul_zero_apply plain_400_10000_256]

/-- The windows' index maps at every grid point: the adjacency and the output move down one row block per
    point, the other three windows stay on the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency window's block at point t is rows 400 t … 400 t + 399 of the adjacency. -/
theorem iblk_adj (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .bf16) x = (V c main_call0_v11_1 : S10000x10000.Idx → EReal) k := by
  obtain ⟨e0, e1, -⟩ := idx_facts t
  unfold iblk1
  rw [View.read_apply]
  show V c main_call0_v11_1 _ = V c main_call0_v11_1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The hidden-matrix window's block is the whole hidden matrix at every point. -/
theorem iblk_hid (c : Dev nD) (t : Fin cfg1.N) (x : S10000x256.Idx) :
    (iblk1 V c 1 t : Vec Ideal S10000x256 .bf16) x = (V c main_call0_v11_0 : S10000x256.Idx → EReal) x := by
  obtain ⟨-, -, e0, e1, -⟩ := idx_facts t
  unfold iblk1
  rw [View.read_apply]
  show V c main_call0_v11_0 _ = V c main_call0_v11_0 _
  congr 1
  funext a
  apply Fin.ext
  match a with
  | ⟨0, _⟩ => show win1_1.index t 0 * 10000 + 1 * (x 0).val = (x 0).val; rw [e0]; omega
  | ⟨1, _⟩ => show win1_1.index t 1 * 256 + 1 * (x 1).val = (x 1).val; rw [e1]; omega

/-- The second weight's window is the whole weight at every point. -/
theorem iblk_w2 (c : Dev nD) (t : Fin cfg1.N) (x : S256x384.Idx) :
    (iblk1 V c 2 t : Vec Ideal S256x384 .bf16) x = (V c main_call0_v3 : S256x384.Idx → EReal) x := by
  obtain ⟨-, -, -, -, e0, e1, -⟩ := idx_facts t
  unfold iblk1
  rw [View.read_apply]
  show V c main_call0_v3 _ = V c main_call0_v3 _
  congr 1
  funext a
  apply Fin.ext
  match a with
  | ⟨0, _⟩ => show win1_2.index t 0 * 256 + 1 * (x 0).val = (x 0).val; rw [e0]; omega
  | ⟨1, _⟩ => show win1_2.index t 1 * 384 + 1 * (x 1).val = (x 1).val; rw [e1]; omega

/-- The third weight's window is the whole weight at every point. -/
theorem iblk_w3 (c : Dev nD) (t : Fin cfg1.N) (x : S384x256.Idx) :
    (iblk1 V c 3 t : Vec Ideal S384x256 .bf16) x = (V c main_call0_v5 : S384x256.Idx → EReal) x := by
  obtain ⟨-, -, -, -, -, -, e0, e1, -⟩ := idx_facts t
  unfold iblk1
  rw [View.read_apply]
  show V c main_call0_v5 _ = V c main_call0_v5 _
  congr 1
  funext a
  apply Fin.ext
  match a with
  | ⟨0, _⟩ => show win1_3.index t 0 * 384 + 1 * (x 0).val = (x 0).val; rw [e0]; omega
  | ⟨1, _⟩ => show win1_3.index t 1 * 256 + 1 * (x 1).val = (x 1).val; rw [e1]; omega

/-- What point t stores at (p, q) of its block is the fused layer at row 400 t + p, column q. -/
theorem block_value (c : Dev nD) (t : Fin cfg1.N) (p : Fin 400) (q : Fin 256) (i : Fin 10000) (j : Fin 256)
    (hi : i.val = 400 * t.val + p.val) (hj : j.val = q.val) :
    k1_pay1 (iblk1 V c 0 t) (iblk1 V c 1 t) (iblk1 V c 2 t) (iblk1 V c 3 t) (ix2 p q)
      = layer (V c main_call0_v11_1) (V c main_call0_v11_0) (V c main_call0_v3) (V c main_call0_v5) i j := by
  obtain rfl : q = j := Fin.ext hj.symm
  rw [pay1]
  unfold layer
  refine Finset.sum_congr rfl fun r _ => ?_
  rw [iblk_w3 V c t (ix2 r q)]
  refine congrArg (fun z => max z 0 * _) (Finset.sum_congr rfl fun l _ => ?_)
  rw [iblk_w2 V c t (ix2 l r)]
  refine congrArg (fun z => z * _) (Finset.sum_congr rfl fun k _ => ?_)
  rw [iblk_hid V c t (ix2 k l), iblk_adj V c t (ix2 p k) (ix2 i k) hi rfl]

theorem hz : (![0, 0] : Fin 2 → Nat) = fun _ => 0 := funext fun a => by fin_cases a <;> rfl

/-- What point t writes back is block t of the fused layer of the arrays as the region finds them. -/
theorem flushed_eq (c : Dev nD) (t : Fin cfg1.N) :
    (dat1 V c).flushed 4 t = ((cfg1.win 4).blk t).view.read (Elt Ideal)
      (G (V c main_call0_v11_1) (V c main_call0_v11_0) (V c main_call0_v3) (V c main_call0_v5)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x256) hz,
    View.ld_unit_zero (S := S256x384) hz, View.ld_unit_zero (S := S384x256) hz]
  obtain ⟨-, -, -, -, -, -, -, -, e0, e1⟩ := idx_facts t
  funext y
  obtain ⟨p, q, rfl⟩ : ∃ (p : Fin 400) (q : Fin 256), y = ix2 p q := ⟨y 0, y 1, eq_ix2 y⟩
  refine block_value V c t p q ((((cfg1.win 4).blk t).view.emb (ix2 p q)) 0) ((((cfg1.win 4).blk t).view.emb (ix2 p q)) 1) ?_ ?_
  · show win1_4.index t 0 * 400 + 1 * p.val = 400 * t.val + p.val
    rw [e0]; omega
  · show win1_4.index t 1 * 256 + 1 * q.val = q.val
    rw [e1]; omega

/-- Row r of the output is in the block of point r / 400. -/
theorem cover (i : S10000x256.Idx) :
    ∃ t : Fin cfg1.N, (cfg1.win 4).flush t = true ∧ i ∈ ((cfg1.win 4).blk t).view.set := by
  have hN : cfg1.N = 25 := N_1
  have h0 : (i 0).val < 10000 := (i 0).isLt
  have h1 : (i 1).val < 256 := (i 1).isLt
  have ht : (i 0).val / 400 < cfg1.N := by rw [hN]; omega
  obtain ⟨-, -, -, -, -, -, -, -, e0, e1⟩ := idx_facts ⟨(i 0).val / 400, ht⟩
  refine ⟨⟨(i 0).val / 400, ht⟩, flush1_4 _, ?_⟩
  show i ∈ ((View.whole main_call0_v12).slice (win1_4.rect ⟨(i 0).val / 400, ht⟩)).set
  rw [View.set_slice_whole, Rect.mem_set_unit]
  intro a
  match a with
  | ⟨0, _⟩ =>
    show win1_4.index ⟨(i 0).val / 400, ht⟩ 0 * 400 ≤ (i 0).val ∧ (i 0).val < win1_4.index ⟨(i 0).val / 400, ht⟩ 0 * 400 + 400
    rw [e0]; show (i 0).val / 400 * 400 ≤ (i 0).val ∧ (i 0).val < (i 0).val / 400 * 400 + 400; omega
  | ⟨1, _⟩ =>
    show win1_4.index ⟨(i 0).val / 400, ht⟩ 1 * 256 ≤ (i 1).val ∧ (i 1).val < win1_4.index ⟨(i 0).val / 400, ht⟩ 1 * 256 + 256
    rw [e1]; omega

/-- After the region the output array holds the fused second layer of the arrays the region found, entry by entry. -/
theorem final (c : Dev nD) :
    (dat1 V c).arrAt 4 cfg1.N
      = G (V c main_call0_v11_1) (V c main_call0_v11_0) (V c main_call0_v3) (V c main_call0_v5) :=
  (dat1 V c).arrAt_eq_of_cover 4 _ (fun t _ => flushed_eq V c t) cover

end Cert.Gcn.Region1

end
-- ==== Proof.Region2.lean ====
/-
  The value of the third layer's region: after it, the output array holds, at every entry (i, j),
      relu(relu(a g)(i, ·) · wo(·, j) + b(j)),
  with a the adjacency, g the second layer's output, wo the output weight and b the bias row, all as the region
  finds them. Each grid point t computes rows 400 t … 400 t + 399 of that matrix from its strip of the adjacency
  and the three whole arrays, and writes them back to the same rows; the 25 strips cover the 10000 rows.
-/
import proofs.«114735_g18906446037451_cont_8to1_851_3_alg».proof.Proof.Gen.KernelIdeal.Frame
import proofs.«114735_g18906446037451_cont_8to1_851_3_alg».proof.Proof.LibDotPlain
import Idealize.ShloMosaic.Lib.Pipeline.Value
import Idealize.ShloMosaic.Lib.ValueIdx
import Idealize.ShloMosaic.Lib.ValueLayout

noncomputable section

namespace Cert.Gcn.Region2

open Cert.KernelIdeal Cert.KernelIdeal.Gen Idealize.ShloMosaic Idealize.ShloMosaic.TcCoe Idealize.ShloMosaic.ValueIdx
open Idealize.ShloMosaic.Pipeline (Dat)
open scoped BigOperators

/-- Entry (i, j) of the layer: relu(relu(A Gm)(i, ·) · Wo(·, j) + B(0, j)). -/
def layer (A : S10000x10000.Idx → EReal) (Gm : S10000x256.Idx → EReal) (Wo : S256x128.Idx → EReal)
    (B : S1x128.Idx → EReal) (i : Fin 10000) (j : Fin 128) : EReal :=
  max (∑ p : Fin 256, max (∑ k : Fin 10000, A (ix2 i k) * Gm (ix2 k p)) 0 * Wo (ix2 p j) + B (ix2 (0 : Fin 1) j)) 0

/-- The layer as an array over the output's index set. -/
def G (A : S10000x10000.Idx → EReal) (Gm : S10000x256.Idx → EReal) (Wo : S256x128.Idx → EReal)
    (B : S1x128.Idx → EReal) : S10000x128.Idx → EReal :=
  fun j => layer A Gm Wo B (j 0) (j 1)

theorem plain_400_10000_256 : DotPlain.IsPlain dot_S400x10000_S10000x256_S400x256_1_0_0_1_n_n := ⟨rfl, rfl, rfl, rfl, rfl, rfl⟩
theorem plain_400_256_128 : DotPlain.IsPlain dot_S400x256_S256x128_S400x128_1_0_0_1_n_n := ⟨rfl, rfl, rfl, rfl, rfl, rfl⟩

/-- The zero word is the real number 0. -/
theorem zero_word : (Scalar.ofBits (F := Ideal) .f32 0x00000000#32 : EReal) = 0 := Ideal.ofBits_zero_f32

/-- The body's block at (p, q): relu of row p of relu(a g) against column q of wo, plus the bias at q. -/
theorem pay (v0 : Vec Ideal S400x10000 .bf16) (v2 : Vec Ideal S10000x256 .bf16) (v8 : Vec Ideal S256x128 .bf16)
    (v11 : Vec Ideal S1x128 .f32) (p : Fin 400) (q : Fin 128) :
    k2_pay1 v0 v2 v8 v11 (ix2 p q)
      = max (∑ l : Fin 256, max (∑ k : Fin 10000, v0 (ix2 p k) * v2 (ix2 k l)) 0 * v8 (ix2 l q)
          + v11 (ix2 (0 : Fin 1) q)) 0 := by
  unfold k2_pay1
  simp only [shapeCast_self]
  rw [maximumf_apply, broadcast_apply, zero_word, addf_apply]
  rw [DotPlain.matmul_zero_apply plain_400_256_128, broadcastTo_1b_ab_apply]
  refine congrArg (fun z => max (z + v11 (ix2 (0 : Fin 1) q)) 0) (Finset.sum_congr rfl fun l _ => ?_)
  rw [truncf_apply, maximumf_apply, broadcast_apply, DotPlain.matmul_zero_apply plain_400_10000_256]
  try rfl

theorem hz : (![0, 0] : Fin 2 → Nat) = fun _ => 0 := funext fun a => by fin_cases a <;> rfl

/-- The index maps at every grid point: the adjacency strip and the output block are row block t, the other three
    windows are the whole arrays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The adjacency strip at point t is rows 400 t … 400 t + 399 of the adjacency. -/
theorem blk_adj (c : Dev nD) (t : Fin cfg2.N) (x : S400x10000.Idx) (k : S10000x10000.Idx)
    (hk0 : (k 0).val = 400 * t.val + (x 0).val) (hk1 : (k 1).val = (x 1).val) :
    (iblk2 V c 0 t : Vec Ideal S400x10000 .bf16) x = (V c main_call0_v11_1 : S10000x10000.Idx → EReal) k := by
  obtain ⟨e0, e1, -⟩ := idx_facts t
  unfold iblk2
  rw [View.read_apply]
  show V c main_call0_v11_1 _ = V c main_call0_v11_1 _
  congr 1
  funext a
  apply Fin.ext
  match a with
  | ⟨0, _⟩ => show win2_0.index t 0 * 400 + 1 * (x 0).val = (k 0).val; rw [e0, hk0]; omega
  | ⟨1, _⟩ => show win2_0.index t 1 * 10000 + 1 * (x 1).val = (k 1).val; rw [e1, hk1]; omega

/-- The second layer's output is read whole at every point. -/
theorem blk_g (c : Dev nD) (t : Fin cfg2.N) (x : S10000x256.Idx) :
    (iblk2 V c 1 t : Vec Ideal S10000x256 .bf16) x = (V c main_call0_v12 : S10000x256.Idx → EReal) x := by
  obtain ⟨-, -, e0, e1, -⟩ := idx_facts t
  unfold iblk2
  rw [View.read_apply]
  show V c main_call0_v12 _ = V c main_call0_v12 _
  congr 1
  funext a
  apply Fin.ext
  match a with
  | ⟨0, _⟩ => show win2_1.index t 0 * 10000 + 1 * (x 0).val = (x 0).val; rw [e0]; omega
  | ⟨1, _⟩ => show win2_1.index t 1 * 256 + 1 * (x 1).val = (x 1).val; rw [e1]; omega

/-- The output weight is read whole at every point. -/
theorem blk_wo (c : Dev nD) (t : Fin cfg2.N) (x : S256x128.Idx) :
    (iblk2 V c 2 t : Vec Ideal S256x128 .bf16) x = (V c main_call0_v7 : S256x128.Idx → EReal) x := by
  obtain ⟨-, -, -, -, e0, e1, -⟩ := idx_facts t
  unfold iblk2
  rw [View.read_apply]
  show V c main_call0_v7 _ = V c main_call0_v7 _
  congr 1
  funext a
  apply Fin.ext
  match a with
  | ⟨0, _⟩ => show win2_2.index t 0 * 256 + 1 * (x 0).val = (x 0).val; rw [e0]; omega
  | ⟨1, _⟩ => show win2_2.index t 1 * 128 + 1 * (x 1).val = (x 1).val; rw [e1]; omega

/-- The bias row is read whole at every point. -/
theorem blk_bias (c : Dev nD) (t : Fin cfg2.N) (x : S1x128.Idx) :
    (iblk2 V c 3 t : Vec Ideal S1x128 .f32) x = (V c main_call0_v9 : S1x128.Idx → EReal) x := by
  obtain ⟨-, -, -, -, -, -, e0, e1, -⟩ := idx_facts t
  unfold iblk2
  rw [View.read_apply]
  show V c main_call0_v9 _ = V c main_call0_v9 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- What point t writes back is block t of the layer over the arrays as the region finds them. -/
theorem flushed_eq (c : Dev nD) (t : Fin cfg2.N) :
    (dat2 V c).flushed 4 t
      = ((cfg2.win 4).blk t).view.read (Elt Ideal) (G (V c main_call0_v11_1) (V c main_call0_v12) (V c main_call0_v7) (V c main_call0_v9)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x256) hz,
    View.ld_unit_zero (S := S256x128) hz, View.ld_unit_zero (S := S1x128) hz]
  obtain ⟨-, -, -, -, -, -, -, -, e0, e1⟩ := idx_facts t
  have ht : t.val < 25 := lt_of_lt_of_eq t.isLt N_2
  funext y
  obtain ⟨p, q, rfl⟩ : ∃ (p : Fin 400) (q : Fin 128), y = ix2 p q := ⟨y 0, y 1, eq_ix2 y⟩
  have hr : 400 * t.val + p.val < 10000 := by have := p.isLt; omega
  have hemb : ((cfg2.win 4).blk t).view.emb (ix2 p q) = ix2 (⟨400 * t.val + p.val, hr⟩ : Fin 10000) q := by
    funext a
    apply Fin.ext
    match a with
    | ⟨0, _⟩ => show win2_4.index t 0 * 400 + 1 * p.val = 400 * t.val + p.val; rw [e0]; omega
    | ⟨1, _⟩ => show win2_4.index t 1 * 128 + 1 * q.val = q.val; rw [e1]; omega
  rw [View.read_apply, hemb]
  refine (pay _ _ _ _ p q).trans ?_
  show _ = layer _ _ _ _ ⟨400 * t.val + p.val, hr⟩ q
  unfold layer
  refine congrArg (fun z => max z 0) ?_
  refine congrArg₂ (· + ·) (Finset.sum_congr rfl fun l _ => ?_) (blk_bias V c t _)
  refine congrArg₂ (· * ·) (congrArg (fun z => max z 0) (Finset.sum_congr rfl fun k _ => ?_)) (blk_wo V c t _)
  exact congrArg₂ (· * ·) (blk_adj V c t _ _ rfl rfl) (blk_g V c t _)

/-- After the region the output array is the layer of the arrays the region reads. -/
theorem final (c : Dev nD) :
    (dat2 V c).arrAt 4 cfg2.N = G (V c main_call0_v11_1) (V c main_call0_v12) (V c main_call0_v7) (V c main_call0_v9) :=
  (dat2 V c).arrAt_eq_of_cover 4 (G (V c main_call0_v11_1) (V c main_call0_v12) (V c main_call0_v7) (V c main_call0_v9))
    (fun t _ => flushed_eq V c t) fun i => by
      have hi0 : (i 0).val < 10000 := (i 0).isLt
      have hi1 : (i 1).val < 128 := (i 1).isLt
      have hN : cfg2.N = 25 := N_2
      have hlt : (i 0).val / 400 < cfg2.N := by rw [hN]; omega
      obtain ⟨-, -, -, -, -, -, -, -, e0, e1⟩ := idx_facts ⟨(i 0).val / 400, hlt⟩
      refine ⟨⟨(i 0).val / 400, hlt⟩, flush2_4 _, ?_⟩
      show i ∈ ((View.whole main_call0_v13).slice (win2_4.rect ⟨(i 0).val / 400, hlt⟩)).set
      rw [View.set_slice_whole, Rect.mem_set_unit]
      intro a
      match a with
      | ⟨0, _⟩ =>
        show win2_4.index ⟨(i 0).val / 400, hlt⟩ 0 * 400 ≤ (i 0).val
          ∧ (i 0).val < win2_4.index ⟨(i 0).val / 400, hlt⟩ 0 * 400 + 400
        rw [e0]; show (i 0).val / 400 * 400 ≤ (i 0).val ∧ (i 0).val < (i 0).val / 400 * 400 + 400; omega
      | ⟨1, _⟩ =>
        show win2_4.index ⟨(i 0).val / 400, hlt⟩ 1 * 128 ≤ (i 1).val
          ∧ (i 1).val < win2_4.index ⟨(i 0).val / 400, hlt⟩ 1 * 128 + 128
        rw [e1]; omega

end Cert.Gcn.Region2

end
-- ==== Proof.Boundaries.lean ====
/-
  The arrays the three kernel regions find, followed through @main's segment boundaries.

  Region 0 finds the adjacency as launched and the host-prepared features and weight; it leaves the hidden matrix
  of layer 1 and a copy of the adjacency. Region 1 finds those two and the host-prepared second and third weights,
  which region 0 did not touch; region 2 finds the copy (an input of region 1, hence unchanged by it), region 1's
  output, and the host-prepared output weight and bias row, untouched by regions 0 and 1.
-/
import proofs.«114735_g18906446037451_cont_8to1_851_3_alg».proof.Proof.Gen.KernelIdeal.Frame
import proofs.«114735_g18906446037451_cont_8to1_851_3_alg».proof.Proof.Region0

noncomputable section

namespace Cert.Gcn.Bnd

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-! ### Region 1's entry -/

/-- Region 1 finds layer 1's hidden matrix. -/
theorem v2_hidden (c : Dev nD) :
    V2 m ρ c main_call0_v11_0
      = Region0.G (V1 m ρ c main_arg1) (V1 m ρ c main_call0_v10) (V1 m ρ c main_call0_v1) :=
  (W2_arr m ρ c 3).trans (Region0.final_hidden (V1 m ρ) c)

/-- Region 1 finds the adjacency's copy, which is the adjacency. -/
theorem v2_copy (c : Dev nD) : V2 m ρ c main_call0_v11_1 = (V1 m ρ c main_arg1 : S10000x10000.Idx → EReal) :=
  (W2_arr m ρ c 4).trans (Region0.final_copy (V1 m ρ) c)

theorem v2_w2 (c : Dev nD) : V2 m ρ c main_call0_v3 = V1 m ρ c main_call0_v3 := W2_of_ne m ρ c main_call0_v3 (by decide)
theorem v2_w3 (c : Dev nD) : V2 m ρ c main_call0_v5 = V1 m ρ c main_call0_v5 := W2_of_ne m ρ c main_call0_v5 (by decide)
theorem v2_wo (c : Dev nD) : V2 m ρ c main_call0_v7 = V1 m ρ c main_call0_v7 := W2_of_ne m ρ c main_call0_v7 (by decide)
theorem v2_b (c : Dev nD) : V2 m ρ c main_call0_v9 = V1 m ρ c main_call0_v9 := W2_of_ne m ρ c main_call0_v9 (by decide)

/-! ### Region 2's entry -/

/-- Region 2 finds the copy as region 1 found it: region 1 only reads it. -/
theorem v3_copy (c : Dev nD) : V3 m ρ c main_call0_v11_1 = V2 m ρ c main_call0_v11_1 :=
  (W3_arr m ρ c 0).trans (((dat1 (V2 m ρ) c).arrAt_in 0 rfl _).trans (A_eq1 (V2 m ρ) c 0))

/-- Region 2 finds what region 1's write-backs leave in its output array. -/
theorem v3_out (c : Dev nD) : V3 m ρ c main_call0_v12 = (dat1 (V2 m ρ) c).arrAt 4 cfg1.N := W3_arr m ρ c 4

theorem v3_wo (c : Dev nD) : V3 m ρ c main_call0_v7 = V1 m ρ c main_call0_v7 :=
  (W3_of_ne m ρ c main_call0_v7 (by decide)).trans (v2_wo m ρ c)
theorem v3_b (c : Dev nD) : V3 m ρ c main_call0_v9 = V1 m ρ c main_call0_v9 :=
  (W3_of_ne m ρ c main_call0_v9 (by decide)).trans (v2_b m ρ c)

/-! ### After region 2 -/

/-- The last region's output array holds what its write-backs leave. -/
theorem v4_out (c : Dev nD) : W4 m ρ c (Proc.devRef .tc main_call0_v13) = (dat2 (V3 m ρ) c).arrAt 4 cfg2.N := W4_arr m ρ c 4

end Cert.Gcn.Bnd

end
-- ==== Proof.GcnAlgebra.lean ====
/-
  The algebra of a three-layer graph convolution, apart from any program.

  A is the n×n adjacency, X the n×d features, W1, W2, W3 the layer weights, Wo and b the output layer.
  The reference form multiplies the features by the weight first and the adjacency second:
      r1 = relu(A (X W1)),  r2 = relu(A (r1 W2)),  r3 = relu(A (r2 W3)),  out = relu(r3 Wo + b).
  The kernel form associates the products the other way round where that is cheaper, (A X) W1 and (A h1) W2,
  fuses the third weight into the second layer, g2 = relu((A h1) W2) W3, and works on weights that are
  zero-extended to wider shapes (padM, padV), so its intermediate matrices carry extra columns.
  Over the reals the two are the same numbers: a padded column of a weight is zero, so the extra columns of every
  intermediate are relu(0) = 0 or 0 itself, a padded row of the next weight is zero, so those columns are never
  read with a non-zero factor, and on the true columns the sums agree by associativity of the matrix product
  (distributivity and exchange of two finite sums). On the extended reals distributivity needs finite entries,
  which is why every entry is assumed to be a real number.
-/
import Idealize.ShloMosaic.PureOps.Ideal
import Mathlib.Algebra.BigOperators.Fin

noncomputable section

namespace Cert.Gcn

open scoped BigOperators

/-- A matrix zero-extended to m' rows and n' columns. -/
def padM {m n : ℕ} (m' n' : ℕ) (W : Fin m → Fin n → EReal) : Fin m' → Fin n' → EReal :=
  fun p q => if h : p.val < m ∧ q.val < n then W ⟨p.val, h.1⟩ ⟨q.val, h.2⟩ else 0

/-- A vector zero-extended to n' entries. -/
def padV {n : ℕ} (n' : ℕ) (b : Fin n → EReal) : Fin n' → EReal :=
  fun q => if h : q.val < n then b ⟨q.val, h⟩ else 0

/-! ### Real twins

Every entry is a real number, so each layer is the image of the same expression over ℝ. The identity is
proved over ℝ, where multiplication distributes over finite sums, and carried back along the inclusion
ℝ → EReal, which commutes with sums, products, maxima and zero. -/

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion of the reals commutes with relu. -/
theorem max_coe_zero (r : ℝ) : max (r : EReal) 0 = ((max r 0 : ℝ) : EReal) :=
  (EReal.coe_strictMono.monotone.map_max).symm

/-- A real matrix zero-extended to m' rows and n' columns. -/
def padMR {m n : ℕ} (m' n' : ℕ) (W : Fin m → Fin n → ℝ) : Fin m' → Fin n' → ℝ :=
  fun p q => if h : p.val < m ∧ q.val < n then W ⟨p.val, h.1⟩ ⟨q.val, h.2⟩ else 0

/-- A real vector zero-extended to n' entries. -/
def padVR {n : ℕ} (n' : ℕ) (b : Fin n → ℝ) : Fin n' → ℝ :=
  fun q => if h : q.val < n then b ⟨q.val, h⟩ else 0

theorem padM_coe {m n : ℕ} (m' n' : ℕ) (W : Fin m → Fin n → ℝ) (p : Fin m') (q : Fin n') :
    padM m' n' (fun i k => (W i k : EReal)) p q = ((padMR m' n' W p q : ℝ) : EReal) := by
  simp only [padM, padMR]
  split_ifs <;> simp

theorem padV_coe {n : ℕ} (n' : ℕ) (b : Fin n → ℝ) (q : Fin n') :
    padV n' (fun k => (b k : EReal)) q = ((padVR n' b q : ℝ) : EReal) := by
  simp only [padV, padVR]
  split_ifs <;> simp

/-- Summing against a zero-extended matrix, at a true column, only reads the true rows. -/
theorem sum_padMR {m n m' n' : ℕ} (hm : m ≤ m') (hn : n ≤ n') (W : Fin m → Fin n → ℝ)
    (f : Fin m' → ℝ) (q : Fin n) :
    ∑ p : Fin m', f p * padMR m' n' W p (Fin.castLE hn q)
      = ∑ p : Fin m, f (Fin.castLE hm p) * W p q := by
  obtain ⟨d, rfl⟩ := Nat.exists_eq_add_of_le hm
  rw [Fin.sum_univ_add]
  have hz : ∑ p : Fin d, f (Fin.natAdd m p) * padMR (m + d) n' W (Fin.natAdd m p) (Fin.castLE hn q) = 0 := by
    apply Finset.sum_eq_zero
    intro p _
    simp [padMR]
  rw [hz, add_zero]
  apply Finset.sum_congr rfl
  intro p _
  have hc : Fin.castLE hm p = Fin.castAdd d p := rfl
  simp [padMR, hc]

theorem padVR_castLE {n n' : ℕ} (hn : n ≤ n') (b : Fin n → ℝ) (q : Fin n) :
    padVR n' b (Fin.castLE hn q) = b q := by
  simp [padVR]

/-- Associativity of a triple product, entrywise: a row of (U V) against w is the row of U against V w. -/
theorem assoc_sum {n m : ℕ} (u : Fin n → ℝ) (v : Fin n → Fin m → ℝ) (w : Fin m → ℝ) :
    ∑ p : Fin m, (∑ k : Fin n, u k * v k p) * w p = ∑ k : Fin n, u k * ∑ p : Fin m, v k p * w p := by
  simp only [Finset.sum_mul, Finset.mul_sum, mul_assoc]
  exact Finset.sum_comm

section real
variable {N D H1 H2 H3 C : ℕ}
variable (a : Fin N → Fin N → ℝ) (x : Fin N → Fin D → ℝ)
  (w1 : Fin D → Fin H1 → ℝ) (w2 : Fin H1 → Fin H2 → ℝ) (w3 : Fin H2 → Fin H3 → ℝ)
  (wo : Fin H3 → Fin C → ℝ) (bb : Fin C → ℝ)

def k1R (H1' : ℕ) (i : Fin N) (j : Fin H1') : ℝ :=
  max (∑ l : Fin D, (∑ k : Fin N, a i k * x k l) * padMR D H1' w1 l j) 0

/-- The hidden matrix of layer 2, before the third weight: relu((A h1) W2ᵖ). -/
def h2R (H1' H2' : ℕ) (i : Fin N) (q : Fin H2') : ℝ :=
  max (∑ p : Fin H1', (∑ k : Fin N, a i k * k1R a x w1 H1' k p) * padMR H1' H2' w2 p q) 0

def k2R (H1' H2' H3' : ℕ) (i : Fin N) (j : Fin H3') : ℝ :=
  ∑ q : Fin H2', h2R a x w1 w2 H1' H2' i q * padMR H2' H3' w3 q j

/-- The hidden matrix of layer 3: relu(A g2). -/
def h3R (H1' H2' H3' : ℕ) (i : Fin N) (p : Fin H3') : ℝ :=
  max (∑ k : Fin N, a i k * k2R a x w1 w2 w3 H1' H2' H3' k p) 0

def k3R (H1' H2' H3' C' : ℕ) (i : Fin N) (j : Fin C') : ℝ :=
  max (∑ p : Fin H3', h3R a x w1 w2 w3 H1' H2' H3' i p * padMR H3' C' wo p j + padVR C' bb j) 0

def r1R (i : Fin N) (j : Fin H1) : ℝ := max (∑ k : Fin N, a i k * ∑ l : Fin D, x k l * w1 l j) 0
def r2R (i : Fin N) (j : Fin H2) : ℝ := max (∑ k : Fin N, a i k * ∑ p : Fin H1, r1R a x w1 k p * w2 p j) 0
def r3R (i : Fin N) (j : Fin H3) : ℝ := max (∑ k : Fin N, a i k * ∑ q : Fin H2, r2R a x w1 w2 k q * w3 q j) 0
def rOutR (i : Fin N) (j : Fin C) : ℝ := max (∑ p : Fin H3, r3R a x w1 w2 w3 i p * wo p j + bb j) 0

variable {H1' H2' H3' C' : ℕ}

/-- Layer 1 at a true column: (A X) W1 = A (X W1). -/
theorem k1R_true (h1 : H1 ≤ H1') (i : Fin N) (j : Fin H1) :
    k1R a x w1 H1' i (Fin.castLE h1 j) = r1R a x w1 i j := by
  unfold k1R r1R
  rw [sum_padMR (le_refl D) h1 w1 _ j]
  simp only [Fin.castLE_refl]
  rw [assoc_sum]

/-- The layer-2 hidden matrix at a true column: the padded rows of W2 are zero, and (A r1) W2 = A (r1 W2). -/
theorem h2R_true (h1 : H1 ≤ H1') (h2 : H2 ≤ H2') (i : Fin N) (q : Fin H2) :
    h2R a x w1 w2 H1' H2' i (Fin.castLE h2 q) = r2R a x w1 w2 i q := by
  unfold h2R r2R
  rw [sum_padMR h1 h2 w2 _ q]
  simp only [k1R_true a x w1 h1]
  rw [assoc_sum]

/-- Layer 2 with the third weight fused, at a true column. -/
theorem k2R_true (h1 : H1 ≤ H1') (h2 : H2 ≤ H2') (h3 : H3 ≤ H3') (i : Fin N) (j : Fin H3) :
    k2R a x w1 w2 w3 H1' H2' H3' i (Fin.castLE h3 j) = ∑ q : Fin H2, r2R a x w1 w2 i q * w3 q j := by
  unfold k2R
  rw [sum_padMR h2 h3 w3 _ j]
  simp only [h2R_true a x w1 w2 h1 h2]

/-- The layer-3 hidden matrix at a true column. -/
theorem h3R_true (h1 : H1 ≤ H1') (h2 : H2 ≤ H2') (h3 : H3 ≤ H3') (i : Fin N) (p : Fin H3) :
    h3R a x w1 w2 w3 H1' H2' H3' i (Fin.castLE h3 p) = r3R a x w1 w2 w3 i p := by
  unfold h3R r3R
  simp only [k2R_true a x w1 w2 w3 h1 h2 h3]

/-- The output layer at a true column. -/
theorem k3R_true (h1 : H1 ≤ H1') (h2 : H2 ≤ H2') (h3 : H3 ≤ H3') (hC : C ≤ C') (i : Fin N) (j : Fin C) :
    k3R a x w1 w2 w3 wo bb H1' H2' H3' C' i (Fin.castLE hC j) = rOutR a x w1 w2 w3 wo bb i j := by
  unfold k3R rOutR
  rw [sum_padMR h3 hC wo _ j, padVR_castLE]
  simp only [h3R_true a x w1 w2 w3 h1 h2 h3]

end real

section
variable {N D H1 H2 H3 C : ℕ}
variable (A : Fin N → Fin N → EReal) (X : Fin N → Fin D → EReal)
  (W1 : Fin D → Fin H1 → EReal) (W2 : Fin H1 → Fin H2 → EReal) (W3 : Fin H2 → Fin H3 → EReal)
  (Wo : Fin H3 → Fin C → EReal) (b : Fin C → EReal)

/-! ### The kernel form, over padded widths H1', H2', H3', C' -/

/-- Layer 1: relu(((A X) W1ᵖ)), an n × H1' matrix. -/
def kern1 (H1' : ℕ) (i : Fin N) (j : Fin H1') : EReal :=
  max (∑ l : Fin D, (∑ k : Fin N, A i k * X k l) * padM D H1' W1 l j) 0

/-- Layer 2 with the third weight fused: relu((A h1) W2ᵖ) W3ᵖ, an n × H3' matrix. -/
def kern2 (H1' H2' H3' : ℕ) (i : Fin N) (j : Fin H3') : EReal :=
  ∑ q : Fin H2', max (∑ p : Fin H1', (∑ k : Fin N, A i k * kern1 A X W1 H1' k p) * padM H1' H2' W2 p q) 0
    * padM H2' H3' W3 q j

/-- Layer 3 and the output layer: relu(relu(A g2) Woᵖ + bᵖ), an n × C' matrix. -/
def kern3 (H1' H2' H3' C' : ℕ) (i : Fin N) (j : Fin C') : EReal :=
  max (∑ p : Fin H3', max (∑ k : Fin N, A i k * kern2 A X W1 W2 W3 H1' H2' H3' k p) 0 * padM H3' C' Wo p j
    + padV C' b j) 0

/-! ### The reference form -/

def ref1 (i : Fin N) (j : Fin H1) : EReal := max (∑ k : Fin N, A i k * ∑ l : Fin D, X k l * W1 l j) 0
def ref2 (i : Fin N) (j : Fin H2) : EReal := max (∑ k : Fin N, A i k * ∑ p : Fin H1, ref1 A X W1 k p * W2 p j) 0
def ref3 (i : Fin N) (j : Fin H3) : EReal := max (∑ k : Fin N, A i k * ∑ q : Fin H2, ref2 A X W1 W2 k q * W3 q j) 0
def refOut (i : Fin N) (j : Fin C) : EReal := max (∑ p : Fin H3, ref3 A X W1 W2 W3 i p * Wo p j + b j) 0

/-! ### Each layer on real entries is the image of its real twin -/

section coe
variable {N D H1 H2 H3 C : ℕ}
variable (a : Fin N → Fin N → ℝ) (x : Fin N → Fin D → ℝ)
  (w1 : Fin D → Fin H1 → ℝ) (w2 : Fin H1 → Fin H2 → ℝ) (w3 : Fin H2 → Fin H3 → ℝ)
  (wo : Fin H3 → Fin C → ℝ) (bb : Fin C → ℝ)

theorem kern1_coe (H1' : ℕ) (i : Fin N) (j : Fin H1') :
    kern1 (fun i k => (a i k : EReal)) (fun i k => (x i k : EReal)) (fun i k => (w1 i k : EReal)) H1' i j
      = ((k1R a x w1 H1' i j : ℝ) : EReal) := by
  unfold kern1 k1R
  simp only [padM_coe, ← EReal.coe_mul, ← coe_sum, max_coe_zero]

theorem kern2_coe (H1' H2' H3' : ℕ) (i : Fin N) (j : Fin H3') :
    kern2 (fun i k => (a i k : EReal)) (fun i k => (x i k : EReal)) (fun i k => (w1 i k : EReal))
        (fun i k => (w2 i k : EReal)) (fun i k => (w3 i k : EReal)) H1' H2' H3' i j
      = ((k2R a x w1 w2 w3 H1' H2' H3' i j : ℝ) : EReal) := by
  unfold kern2 k2R h2R
  simp only [kern1_coe, padM_coe, ← EReal.coe_mul, ← coe_sum, max_coe_zero]

theorem kern3_coe (H1' H2' H3' C' : ℕ) (i : Fin N) (j : Fin C') :
    kern3 (fun i k => (a i k : EReal)) (fun i k => (x i k : EReal)) (fun i k => (w1 i k : EReal))
        (fun i k => (w2 i k : EReal)) (fun i k => (w3 i k : EReal)) (fun i k => (wo i k : EReal))
        (fun k => (bb k : EReal)) H1' H2' H3' C' i j
      = ((k3R a x w1 w2 w3 wo bb H1' H2' H3' C' i j : ℝ) : EReal) := by
  unfold kern3 k3R h3R
  simp only [kern2_coe, padM_coe, padV_coe, ← EReal.coe_mul, ← EReal.coe_add, ← coe_sum, max_coe_zero]

theorem ref1_coe (i : Fin N) (j : Fin H1) :
    ref1 (fun i k => (a i k : EReal)) (fun i k => (x i k : EReal)) (fun i k => (w1 i k : EReal)) i j
      = ((r1R a x w1 i j : ℝ) : EReal) := by
  unfold ref1 r1R
  simp only [← EReal.coe_mul, ← coe_sum, max_coe_zero]

theorem ref2_coe (i : Fin N) (j : Fin H2) :
    ref2 (fun i k => (a i k : EReal)) (fun i k => (x i k : EReal)) (fun i k => (w1 i k : EReal))
        (fun i k => (w2 i k : EReal)) i j
      = ((r2R a x w1 w2 i j : ℝ) : EReal) := by
  unfold ref2 r2R
  simp only [ref1_coe, ← EReal.coe_mul, ← coe_sum, max_coe_zero]

theorem ref3_coe (i : Fin N) (j : Fin H3) :
    ref3 (fun i k => (a i k : EReal)) (fun i k => (x i k : EReal)) (fun i k => (w1 i k : EReal))
        (fun i k => (w2 i k : EReal)) (fun i k => (w3 i k : EReal)) i j
      = ((r3R a x w1 w2 w3 i j : ℝ) : EReal) := by
  unfold ref3 r3R
  simp only [ref2_coe, ← EReal.coe_mul, ← coe_sum, max_coe_zero]

theorem refOut_coe (i : Fin N) (j : Fin C) :
    refOut (fun i k => (a i k : EReal)) (fun i k => (x i k : EReal)) (fun i k => (w1 i k : EReal))
        (fun i k => (w2 i k : EReal)) (fun i k => (w3 i k : EReal)) (fun i k => (wo i k : EReal))
        (fun k => (bb k : EReal)) i j
      = ((rOutR a x w1 w2 w3 wo bb i j : ℝ) : EReal) := by
  unfold refOut rOutR
  simp only [ref3_coe, ← EReal.coe_mul, ← EReal.coe_add, ← coe_sum, max_coe_zero]

end coe

/-- On real entries the kernel form, read at a true column, is the reference form. -/
theorem kern3_eq_refOut {H1' H2' H3' C' : ℕ} (h1 : H1 ≤ H1') (h2 : H2 ≤ H2') (h3 : H3 ≤ H3') (hC : C ≤ C')
    (hA : ∀ i k, ∃ r : ℝ, A i k = (r : EReal)) (hX : ∀ i k, ∃ r : ℝ, X i k = (r : EReal))
    (hW1 : ∀ i k, ∃ r : ℝ, W1 i k = (r : EReal)) (hW2 : ∀ i k, ∃ r : ℝ, W2 i k = (r : EReal))
    (hW3 : ∀ i k, ∃ r : ℝ, W3 i k = (r : EReal)) (hWo : ∀ i k, ∃ r : ℝ, Wo i k = (r : EReal))
    (hb : ∀ k, ∃ r : ℝ, b k = (r : EReal)) (i : Fin N) (j : Fin C) :
    kern3 A X W1 W2 W3 Wo b H1' H2' H3' C' i (Fin.castLE hC j) = refOut A X W1 W2 W3 Wo b i j := by
  choose a ha using hA
  choose x hx using hX
  choose w1 hw1 using hW1
  choose w2 hw2 using hW2
  choose w3 hw3 using hW3
  choose wo hwo using hWo
  choose bb hbb using hb
  obtain rfl : A = fun i k => (a i k : EReal) := funext fun i => funext fun k => ha i k
  obtain rfl : X = fun i k => (x i k : EReal) := funext fun i => funext fun k => hx i k
  obtain rfl : W1 = fun i k => (w1 i k : EReal) := funext fun i => funext fun k => hw1 i k
  obtain rfl : W2 = fun i k => (w2 i k : EReal) := funext fun i => funext fun k => hw2 i k
  obtain rfl : W3 = fun i k => (w3 i k : EReal) := funext fun i => funext fun k => hw3 i k
  obtain rfl : Wo = fun i k => (wo i k : EReal) := funext fun i => funext fun k => hwo i k
  obtain rfl : b = fun k => (bb k : EReal) := funext fun k => hbb k
  rw [kern3_coe, refOut_coe, k3R_true a x w1 w2 w3 wo bb h1 h2 h3 hC]

end

end Cert.Gcn

end
-- ==== Proof.GcnView.lean ====
/-
  A rank-2 array read as a matrix of its two coordinates, and a rank-1 array as a vector of its one coordinate:
  the form in which the graph convolution's algebra is stated.
-/
import Idealize.ShloMosaic.PureOps.Ideal
import Idealize.ShloMosaic.Lib.ValueIdx

noncomputable section

namespace Cert.Gcn

open Idealize.ShloMosaic

/-- Entry (i, k) of a rank-2 array. -/
def mat {a b : ℕ} (x : (⟨2, ![a, b]⟩ : Shape).Idx → EReal) : Fin a → Fin b → EReal :=
  fun i k => x (ValueIdx.ix2 i k)

/-- Entry i of a rank-1 array. -/
def vec {a : ℕ} (x : (⟨1, ![a]⟩ : Shape).Idx → EReal) : Fin a → EReal :=
  fun i => x (ValueIdx.ix1 i)

theorem mat_apply {a b : ℕ} (x : (⟨2, ![a, b]⟩ : Shape).Idx → EReal) (i : Fin a) (k : Fin b) :
    mat x i k = x (ValueIdx.ix2 i k) := rfl

theorem vec_apply {a : ℕ} (x : (⟨1, ![a]⟩ : Shape).Idx → EReal) (i : Fin a) :
    vec x i = x (ValueIdx.ix1 i) := rfl

end Cert.Gcn

end
-- ==== Proof.HostEnds.lean ====
/-
  The host operations at the two ends of the idealized kernel program, read at the extended reals: before the first
  kernel region the weights and the bias are zero-extended to the kernel's tile extents (and narrowed, which is the
  identity on extended reals), the features are narrowed, the adjacency is untouched; after the last region the
  result is the leading 100 columns of the kernel's 128-column output.
-/
import proofs.«114735_g18906446037451_cont_8to1_851_3_alg».proof.Proof.Gen.KernelIdeal.Frame
import proofs.«114735_g18906446037451_cont_8to1_851_3_alg».proof.Proof.GcnAlgebra
import proofs.«114735_g18906446037451_cont_8to1_851_3_alg».proof.Proof.GcnView
import Idealize.ShloMosaic.Lib.KernelVsHost
import Idealize.ShloMosaic.Lib.Pipeline.Value
import Idealize.ShloMosaic.Lib.ValueIdx
import Idealize.ShloMosaic.Lib.ValueLayout
import Idealize.ShloMosaic.Lib.StableHlo.Run

noncomputable section

namespace Cert.Gcn.HostEnds

open Cert.KernelIdeal Cert.KernelIdeal.Gen Idealize.ShloMosaic Idealize.ShloMosaic.TcCoe Idealize.ShloMosaic.ValueIdx Cert.Gcn

variable (m : (ℓ : Loc nD τ sig) → Buf (Elt Ideal) ℓ) (ρ : Dev nD → PrngReg)

/-- The padding scalar of every `pad` here, the integer word 0 converted, is the real number 0. -/
theorem zero_scalar (i : S_.Idx) : (sitofp (F := Ideal) .f32 (constantI S_ 32 0#32) : S_.Idx → EReal) i = 0 := by
  show (((0#32 : BitVec 32).toInt : ℝ) : EReal) = 0
  simp

/-- A matrix padded on the high side of both axes by a scalar that is 0, read as a matrix, is the matrix
    zero-extended: inside the operand's extents the operand's entry, outside them 0. -/
theorem mat_pad {a b a' b' : ℕ} (hi : Fin 2 → ℕ) (x : (⟨2, ![a, b]⟩ : Shape).Idx → EReal) (v : S_.Idx → EReal)
    (hv : ∀ i, v i = 0)
    (h : (⟨2, ![a, b]⟩ : Shape).Pads ![0, 0] hi ![0, 0] ⟨2, ![a', b']⟩) (hu : 0 < S_.numel) :
    mat (pad ⟨2, ![a', b']⟩ ![0, 0] hi ![0, 0] x v h hu) = padM a' b' (mat x) := by
  funext p q
  unfold padM
  simp only [mat_apply]
  by_cases hin : p.val < a ∧ q.val < b
  · rw [dif_pos hin]
    exact pad_apply_of_inside _ _ _ x v h hu (ix2 p q) (ix2 ⟨p.val, hin.1⟩ ⟨q.val, hin.2⟩)
      (fun d => match d with | ⟨0, _⟩ => by simp | ⟨1, _⟩ => by simp)
  · rw [dif_neg hin]
    by_cases hp : p.val < a
    · have hq : ¬ q.val < b := fun hq => hin ⟨hp, hq⟩
      rw [pad_apply_of_not_inside _ _ _ x v h hu (ix2 p q) (1 : Fin 2) (fun h3 => hq (by simpa using h3.2.2))]
      exact hv _
    · rw [pad_apply_of_not_inside _ _ _ x v h hu (ix2 p q) (0 : Fin 2) (fun h3 => hp (by simpa using h3.2.2))]
      exact hv _

/-- The same for a vector padded on the high side. -/
theorem vec_pad {a a' : ℕ} (hi : Fin 1 → ℕ) (x : (⟨1, ![a]⟩ : Shape).Idx → EReal) (v : S_.Idx → EReal)
    (hv : ∀ i, v i = 0)
    (h : (⟨1, ![a]⟩ : Shape).Pads ![0] hi ![0] ⟨1, ![a']⟩) (hu : 0 < S_.numel) :
    vec (pad ⟨1, ![a']⟩ ![0] hi ![0] x v h hu) = padV a' (vec x) := by
  funext q
  unfold padV
  simp only [vec_apply]
  by_cases hin : q.val < a
  · rw [dif_pos hin]
    exact pad_apply_of_inside _ _ _ x v h hu (ix1 q) (ix1 ⟨q.val, hin⟩)
      (fun d => match d with | ⟨0, _⟩ => by simp)
  · rw [dif_neg hin]
    rw [pad_apply_of_not_inside _ _ _ x v h hu (ix1 q) (0 : Fin 1) (fun h3 => hin (by simpa using h3.2.2))]
    exact hv _

/-- The adjacency matrix: no host operation before the first region writes it. -/
theorem pre_adj (c : Dev nD) : V1 m ρ c main_arg1 = m ((c : Thread nD τ).loc main_arg1) := by
  show StableHlo.after hostOps0 (W0 m ρ c) (Proc.devRef .tc main_arg1) = _
  dsimp only [hostOps0]
  after_results

/-- The features: narrowed to bf16, which is the identity on extended reals. -/
theorem pre_feat (c : Dev nD) :
    (V1 m ρ c main_call0_v10 : S10000x128.Idx → EReal) = (m ((c : Thread nD τ).loc main_arg0) : S10000x128.Idx → EReal) := by
  show StableHlo.after hostOps0 (W0 m ρ c) (Proc.devRef .tc main_call0_v10) = _
  dsimp only [hostOps0]
  after_results
  rfl

/-- The first weight matrix, 128×200 zero-extended to 128×256. -/
theorem pre_w1 (c : Dev nD) :
    mat (V1 m ρ c main_call0_v1 : S128x256.Idx → EReal)
      = padM 128 256 (mat (m ((c : Thread nD τ).loc main_arg2) : S128x200.Idx → EReal)) := by
  have e : (V1 m ρ c main_call0_v1 : S128x256.Idx → EReal) =
      pad S128x256 ![0, 0] ![0, 56] ![0, 0] (m ((c : Thread nD τ).loc main_arg2) : S128x200.Idx → EReal)
        (sitofp (F := Ideal) .f32 (constantI S_ 32 0#32)) pads_S128x200_S128x256_000_0560 h_S_ := by
    show StableHlo.after hostOps0 (W0 m ρ c) (Proc.devRef .tc main_call0_v1) = _
    dsimp only [hostOps0]
    after_results
    rfl
  rw [e]
  exact mat_pad _ _ _ zero_scalar _ _

/-- The second weight matrix, 200×300 zero-extended to 256×384. -/
theorem pre_w2 (c : Dev nD) :
    mat (V1 m ρ c main_call0_v3 : S256x384.Idx → EReal)
      = padM 256 384 (mat (m ((c : Thread nD τ).loc main_arg3) : S200x300.Idx → EReal)) := by
  have e : (V1 m ρ c main_call0_v3 : S256x384.Idx → EReal) =
      pad S256x384 ![0, 0] ![56, 84] ![0, 0] (m ((c : Thread nD τ).loc main_arg3) : S200x300.Idx → EReal)
        (sitofp (F := Ideal) .f32 (constantI S_ 32 0#32)) pads_S200x300_S256x384_0560_0840 h_S_ := by
    show StableHlo.after hostOps0 (W0 m ρ c) (Proc.devRef .tc main_call0_v3) = _
    dsimp only [hostOps0]
    after_results
    rfl
  rw [e]
  exact mat_pad _ _ _ zero_scalar _ _

/-- The third weight matrix, 300×200 zero-extended to 384×256. -/
theorem pre_w3 (c : Dev nD) :
    mat (V1 m ρ c main_call0_v5 : S384x256.Idx → EReal)
      = padM 384 256 (mat (m ((c : Thread nD τ).loc main_arg4) : S300x200.Idx → EReal)) := by
  have e : (V1 m ρ c main_call0_v5 : S384x256.Idx → EReal) =
      pad S384x256 ![0, 0] ![84, 56] ![0, 0] (m ((c : Thread nD τ).loc main_arg4) : S300x200.Idx → EReal)
        (sitofp (F := Ideal) .f32 (constantI S_ 32 0#32)) pads_S300x200_S384x256_0840_0560 h_S_ := by
    show StableHlo.after hostOps0 (W0 m ρ c) (Proc.devRef .tc main_call0_v5) = _
    dsimp only [hostOps0]
    after_results
    rfl
  rw [e]
  exact mat_pad _ _ _ zero_scalar _ _

/-- The output weight matrix, 200×100 zero-extended to 256×128. -/
theorem pre_wo (c : Dev nD) :
    mat (V1 m ρ c main_call0_v7 : S256x128.Idx → EReal)
      = padM 256 128 (mat (m ((c : Thread nD τ).loc main_arg5) : S200x100.Idx → EReal)) := by
  have e : (V1 m ρ c main_call0_v7 : S256x128.Idx → EReal) =
      pad S256x128 ![0, 0] ![56, 28] ![0, 0] (m ((c : Thread nD τ).loc main_arg5) : S200x100.Idx → EReal)
        (sitofp (F := Ideal) .f32 (constantI S_ 32 0#32)) pads_S200x100_S256x128_0560_0280 h_S_ := by
    show StableHlo.after hostOps0 (W0 m ρ c) (Proc.devRef .tc main_call0_v7) = _
    dsimp only [hostOps0]
    after_results
    rfl
  rw [e]
  exact mat_pad _ _ _ zero_scalar _ _

/-- The bias: 100 entries zero-extended to 128, then given a leading unit axis; row 0 of that is the extended vector. -/
theorem pre_b (c : Dev nD) :
    (fun j : Fin 128 => (V1 m ρ c main_call0_v9 : S1x128.Idx → EReal) (ix2 (0 : Fin 1) j))
      = padV 128 (vec (m ((c : Thread nD τ).loc main_arg6) : S100.Idx → EReal)) := by
  have e : (V1 m ρ c main_call0_v9 : S1x128.Idx → EReal) =
      shapeCast S1x128 (pad S128 ![0] ![28] ![0] (m ((c : Thread nD τ).loc main_arg6) : S100.Idx → EReal)
        (sitofp (F := Ideal) .f32 (constantI S_ 32 0#32)) pads_S100_S128_0280 h_S_) shapeCasts_S128_S1x128 := by
    show StableHlo.after hostOps0 (W0 m ρ c) (Proc.devRef .tc main_call0_v9) = _
    dsimp only [hostOps0]
    after_results
    rfl
  funext j
  rw [e, shapeCast_addUnit_apply]
  have hj : (fun a : Fin 1 => ix2 (0 : Fin 1) j a.succ) = ix1 j := by
    funext a; match a with | ⟨0, _⟩ => rfl
  rw [hj]
  exact congrFun (vec_pad _ _ _ zero_scalar _ _) j

/-- After the last region: the result is the leading 100 columns of the kernel's 128-column output. -/
theorem tail (c : Dev nD) (i : Fin 10000) (j : Fin 100) :
    (W5 m ρ c (Proc.devRef .tc main_v0) : S10000x100.Idx → EReal) (ix2 i j)
      = (W4 m ρ c (Proc.devRef .tc main_call0_v13) : S10000x128.Idx → EReal) (ix2 i (Fin.castLE (by decide) j)) := by
  have e : (W5 m ρ c (Proc.devRef .tc main_v0) : S10000x100.Idx → EReal) =
      extractStridedSlice S10000x100 ![0, 0] (W4 m ρ c (Proc.devRef .tc main_call0_v13) : S10000x128.Idx → EReal)
        slices_S10000x128_S10000x100_0_0 := by
    show StableHlo.after hostOps3 (W4 m ρ c) (Proc.devRef .tc main_v0) = _
    dsimp only [hostOps3]
    after_results
    rfl
  rw [e]
  exact extractStridedSlice_apply _ _ _ (ix2 i j) (ix2 i (Fin.castLE (by decide) j))
    (fun a => match a with | ⟨0, _⟩ => by simp | ⟨1, _⟩ => by simp)

end Cert.Gcn.HostEnds

end
-- ==== Proof.KernelValue.lean ====
/-
  The idealized kernel program's result, read at an entry, is the kernel form of the graph convolution.

  The result is the first 100 columns of region 2's output; region 2's output is its layer function of the adjacency
  copy, region 1's output, and the padded output weight and bias row; region 1's output is its layer function of the
  copy, region 0's hidden matrix and the padded second and third weights; region 0's hidden matrix is its layer
  function of the adjacency, the features and the padded first weight. Entry by entry these nest into the kernel
  form over the launch arrays, the host-prepared weights being the zero-extensions of the arguments.
-/
import proofs.«114735_g18906446037451_cont_8to1_851_3_alg».proof.Proof.Region0
import proofs.«114735_g18906446037451_cont_8to1_851_3_alg».proof.Proof.Region1
import proofs.«114735_g18906446037451_cont_8to1_851_3_alg».proof.Proof.Region2
import proofs.«114735_g18906446037451_cont_8to1_851_3_alg».proof.Proof.Boundaries
import proofs.«114735_g18906446037451_cont_8to1_851_3_alg».proof.Proof.HostEnds
import proofs.«114735_g18906446037451_cont_8to1_851_3_alg».proof.Proof.GcnAlgebra
import proofs.«114735_g18906446037451_cont_8to1_851_3_alg».proof.Proof.GcnView

noncomputable section

namespace Cert.Gcn.KValue

open Cert.KernelIdeal Cert.KernelIdeal.Gen Idealize.ShloMosaic Idealize.ShloMosaic.TcCoe Idealize.ShloMosaic.ValueIdx
open Idealize.SL.Sem Cert.Gcn
open scoped BigOperators

section Layers

variable (a : S10000x10000.Idx → EReal) (x : S10000x128.Idx → EReal) (w1 : S128x256.Idx → EReal)
  (w2 : S256x384.Idx → EReal) (w3 : S384x256.Idx → EReal) (wo : S256x128.Idx → EReal) (bb : S1x128.Idx → EReal)
  (W1 : Fin 128 → Fin 200 → EReal) (W2 : Fin 200 → Fin 300 → EReal) (W3 : Fin 300 → Fin 200 → EReal)
  (Wo : Fin 200 → Fin 100 → EReal) (b : Fin 100 → EReal)

/-- Region 0's hidden matrix is the kernel form's first layer. -/
theorem layer1 (hw1 : mat w1 = padM 128 256 W1) (k : Fin 10000) (p : Fin 256) :
    Region0.G a x w1 (ix2 k p) = kern1 (mat a) (mat x) W1 256 k p := by
  unfold kern1
  rw [← hw1]
  rfl

/-- Region 1's output over region 0's is the kernel form's second layer. -/
theorem layer2 (hw1 : mat w1 = padM 128 256 W1) (hw2 : mat w2 = padM 256 384 W2) (hw3 : mat w3 = padM 384 256 W3)
    (k : Fin 10000) (p : Fin 256) :
    Region1.G a (Region0.G a x w1) w2 w3 (ix2 k p) = kern2 (mat a) (mat x) W1 W2 W3 256 384 256 k p := by
  unfold kern2
  rw [← hw2, ← hw3]
  show Region1.layer a (Region0.G a x w1) w2 w3 k p = _
  unfold Region1.layer
  simp only [layer1 a x w1 W1 hw1]
  rfl

/-- Region 2's output over region 1's is the kernel form's last layer. -/
theorem layer3 (hw1 : mat w1 = padM 128 256 W1) (hw2 : mat w2 = padM 256 384 W2) (hw3 : mat w3 = padM 384 256 W3)
    (hwo : mat wo = padM 256 128 Wo) (hb : (fun j : Fin 128 => bb (ix2 (0 : Fin 1) j)) = padV 128 b)
    (i : Fin 10000) (j : Fin 128) :
    Region2.G a (Region1.G a (Region0.G a x w1) w2 w3) wo bb (ix2 i j)
      = kern3 (mat a) (mat x) W1 W2 W3 Wo b 256 384 256 128 i j := by
  unfold kern3
  rw [← hwo, ← hb]
  show Region2.layer a (Region1.G a (Region0.G a x w1) w2 w3) wo bb i j = _
  unfold Region2.layer
  simp only [layer2 a x w1 w2 w3 W1 W2 W3 hw1 hw2 hw3]
  rfl

end Layers

variable (m : (ℓ : Loc nD τ sig) → Buf (Elt Ideal) ℓ) (ρ : Dev nD → PrngReg)

/-- Region 2's output array as the three layer functions nested, over what the host prepared. -/
theorem out_nested (c : Dev nD) :
    W4 m ρ c (Proc.devRef .tc main_call0_v13)
      = Region2.G (V1 m ρ c main_arg1)
          (Region1.G (V1 m ρ c main_arg1) (Region0.G (V1 m ρ c main_arg1) (V1 m ρ c main_call0_v10) (V1 m ρ c main_call0_v1))
            (V1 m ρ c main_call0_v3) (V1 m ρ c main_call0_v5))
          (V1 m ρ c main_call0_v7) (V1 m ρ c main_call0_v9) := by
  rw [Bnd.v4_out, Region2.final (V3 m ρ) c, Bnd.v3_copy, Bnd.v3_out, Region1.final (V2 m ρ) c, Bnd.v2_copy,
    Bnd.v2_hidden, Bnd.v2_w2, Bnd.v2_w3, Bnd.v3_wo, Bnd.v3_b]

/-- Entry (i, j) of the kernel program's result is the kernel form at (i, j), over the launch arrays. -/
theorem kernel_entry (c : Dev nD) (i : Fin 10000) (j : Fin 100) :
    (W5 m ρ c (Proc.devRef .tc main_v0) : S10000x100.Idx → EReal) (ix2 i j)
      = kern3 (mat (m ((c : Thread nD τ).loc main_arg1))) (mat (m ((c : Thread nD τ).loc main_arg0)))
          (mat (m ((c : Thread nD τ).loc main_arg2))) (mat (m ((c : Thread nD τ).loc main_arg3)))
          (mat (m ((c : Thread nD τ).loc main_arg4))) (mat (m ((c : Thread nD τ).loc main_arg5)))
          (vec (m ((c : Thread nD τ).loc main_arg6))) 256 384 256 128 i (Fin.castLE (by decide) j) := by
  rw [HostEnds.tail m ρ c i j, out_nested m ρ c,
    layer3 _ _ _ _ _ _ _ _ _ _ _ _ (HostEnds.pre_w1 m ρ c) (HostEnds.pre_w2 m ρ c) (HostEnds.pre_w3 m ρ c)
      (HostEnds.pre_wo m ρ c) (HostEnds.pre_b m ρ c), HostEnds.pre_adj m ρ c, HostEnds.pre_feat m ρ c]

end Cert.Gcn.KValue

end
-- ==== Proof.RefValue.lean ====
/-
  The reference program's result, read at an entry, is the reference form of the graph convolution.
-/
import proofs.«114735_g18906446037451_cont_8to1_851_3_alg».proof.Proof.Gen.ReferenceIdeal.Read
import proofs.«114735_g18906446037451_cont_8to1_851_3_alg».proof.Proof.GcnAlgebra
import proofs.«114735_g18906446037451_cont_8to1_851_3_alg».proof.Proof.GcnView

noncomputable section

namespace Cert.Gcn.RefValue

open Idealize.ShloMosaic Idealize.ShloMosaic.ValueIdx Cert.ReferenceIdeal Cert.ReferenceIdeal.Read

/-- The reference's zero constant is the number zero. -/
theorem zero_cst : (FloatOps.ofBits (F := Ideal) .f32 0x00000000#32 : Elt Ideal .f32) = (0 : EReal) := by
  rw [Ideal.ofBits_def, Ideal.ofBits_zero_f32]

/-- X W1 at (k, j). -/
theorem v0_eq (x0 : (⟨S10000x128, .f32⟩ : BufTy).Contents (Elt Ideal)) (x2 : (⟨S128x200, .f32⟩ : BufTy).Contents (Elt Ideal))
    (k : Fin 10000) (j : Fin 200) :
    val_main_v0 (F := Ideal) x0 x2 (ix2 k j) = ∑ l : Fin 128, mat x0 k l * mat x2 l j := by
  rw [val_main_v0_apply]
  refine Finset.sum_congr rfl fun l _ => ?_
  have e1 : lidx_main_v0 (ix2 k j) l = ix2 k l := funext fun a => Fin.ext (by match a with | ⟨0, _⟩ => rfl | ⟨1, _⟩ => rfl)
  have e2 : ridx_main_v0 (ix2 k j) l = ix2 l j := funext fun a => Fin.ext (by match a with | ⟨0, _⟩ => rfl | ⟨1, _⟩ => rfl)
  rw [e1, e2]; rfl

/-- Layer 1: relu(A (X W1)) at (i, j). -/
theorem v3_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (i : Fin 10000) (j : Fin 200) :
    val_main_v3 (F := Ideal) x0 x1 x2 (ix2 i j) = Cert.Gcn.ref1 (mat x1) (mat x0) (mat x2) i j := by
  rw [val_main_v3_apply, val_main_v2_apply, val_main_cst_apply, zero_cst, Ideal.maximumf_def, val_main_v1_apply]
  unfold Cert.Gcn.ref1
  congr 1
  refine Finset.sum_congr rfl fun k _ => ?_
  have e1 : lidx_main_v1 (ix2 i j) k = ix2 i k := funext fun a => Fin.ext (by match a with | ⟨0, _⟩ => rfl | ⟨1, _⟩ => rfl)
  have e2 : ridx_main_v1 (ix2 i j) k = ix2 k j := funext fun a => Fin.ext (by match a with | ⟨0, _⟩ => rfl | ⟨1, _⟩ => rfl)
  rw [e1, e2, v0_eq]; rfl

/-- r1 W2 at (k, j). -/
theorem v4_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal)) (k : Fin 10000) (j : Fin 300) :
    val_main_v4 (F := Ideal) x0 x1 x2 x3 (ix2 k j)
      = ∑ p : Fin 200, Cert.Gcn.ref1 (mat x1) (mat x0) (mat x2) k p * mat x3 p j := by
  rw [val_main_v4_apply]
  refine Finset.sum_congr rfl fun p _ => ?_
  have e1 : lidx_main_v4 (ix2 k j) p = ix2 k p := funext fun a => Fin.ext (by match a with | ⟨0, _⟩ => rfl | ⟨1, _⟩ => rfl)
  have e2 : ridx_main_v4 (ix2 k j) p = ix2 p j := funext fun a => Fin.ext (by match a with | ⟨0, _⟩ => rfl | ⟨1, _⟩ => rfl)
  rw [e1, e2, v3_eq]; rfl

/-- Layer 2: relu(A (r1 W2)) at (i, j). -/
theorem v7_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal)) (i : Fin 10000) (j : Fin 300) :
    val_main_v7 (F := Ideal) x0 x1 x2 x3 (ix2 i j) = Cert.Gcn.ref2 (mat x1) (mat x0) (mat x2) (mat x3) i j := by
  rw [val_main_v7_apply, val_main_v6_apply, val_main_cst_0_apply, zero_cst, Ideal.maximumf_def, val_main_v5_apply]
  unfold Cert.Gcn.ref2
  congr 1
  refine Finset.sum_congr rfl fun k _ => ?_
  have e1 : lidx_main_v5 (ix2 i j) k = ix2 i k := funext fun a => Fin.ext (by match a with | ⟨0, _⟩ => rfl | ⟨1, _⟩ => rfl)
  have e2 : ridx_main_v5 (ix2 i j) k = ix2 k j := funext fun a => Fin.ext (by match a with | ⟨0, _⟩ => rfl | ⟨1, _⟩ => rfl)
  rw [e1, e2, v4_eq]; rfl

/-- r2 W3 at (k, j). -/
theorem v8_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal)) (x4 : (⟨S300x200, .f32⟩ : BufTy).Contents (Elt Ideal)) (k : Fin 10000) (j : Fin 200) :
    val_main_v8 (F := Ideal) x0 x1 x2 x3 x4 (ix2 k j)
      = ∑ q : Fin 300, Cert.Gcn.ref2 (mat x1) (mat x0) (mat x2) (mat x3) k q * mat x4 q j := by
  rw [val_main_v8_apply]
  refine Finset.sum_congr rfl fun q _ => ?_
  have e1 : lidx_main_v8 (ix2 k j) q = ix2 k q := funext fun a => Fin.ext (by match a with | ⟨0, _⟩ => rfl | ⟨1, _⟩ => rfl)
  have e2 : ridx_main_v8 (ix2 k j) q = ix2 q j := funext fun a => Fin.ext (by match a with | ⟨0, _⟩ => rfl | ⟨1, _⟩ => rfl)
  rw [e1, e2, v7_eq]; rfl

/-- Layer 3: relu(A (r2 W3)) at (i, j). -/
theorem v11_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal)) (x4 : (⟨S300x200, .f32⟩ : BufTy).Contents (Elt Ideal)) (i : Fin 10000) (j : Fin 200) :
    val_main_v11 (F := Ideal) x0 x1 x2 x3 x4 (ix2 i j)
      = Cert.Gcn.ref3 (mat x1) (mat x0) (mat x2) (mat x3) (mat x4) i j := by
  rw [val_main_v11_apply, val_main_v10_apply, val_main_cst_1_apply, zero_cst, Ideal.maximumf_def, val_main_v9_apply]
  unfold Cert.Gcn.ref3
  congr 1
  refine Finset.sum_congr rfl fun k _ => ?_
  have e1 : lidx_main_v9 (ix2 i j) k = ix2 i k := funext fun a => Fin.ext (by match a with | ⟨0, _⟩ => rfl | ⟨1, _⟩ => rfl)
  have e2 : ridx_main_v9 (ix2 i j) k = ix2 k j := funext fun a => Fin.ext (by match a with | ⟨0, _⟩ => rfl | ⟨1, _⟩ => rfl)
  rw [e1, e2, v8_eq]; rfl

/-- r3 Wo at (i, j). -/
theorem v12_eq (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal)) (x4 : (⟨S300x200, .f32⟩ : BufTy).Contents (Elt Ideal)) (x5 : (⟨S200x100, .f32⟩ : BufTy).Contents (Elt Ideal)) (i : Fin 10000) (j : Fin 100) :
    val_main_v12 (F := Ideal) x0 x1 x2 x3 x4 x5 (ix2 i j)
      = ∑ p : Fin 200, Cert.Gcn.ref3 (mat x1) (mat x0) (mat x2) (mat x3) (mat x4) i p * mat x5 p j := by
  rw [val_main_v12_apply]
  refine Finset.sum_congr rfl fun p _ => ?_
  have e1 : lidx_main_v12 (ix2 i j) p = ix2 i p := funext fun a => Fin.ext (by match a with | ⟨0, _⟩ => rfl | ⟨1, _⟩ => rfl)
  have e2 : ridx_main_v12 (ix2 i j) p = ix2 p j := funext fun a => Fin.ext (by match a with | ⟨0, _⟩ => rfl | ⟨1, _⟩ => rfl)
  rw [e1, e2, v11_eq]; rfl

/-- The bias spread over the rows: entry (i, j) is b j. -/
theorem v14_eq (x6 : (⟨S100, .f32⟩ : BufTy).Contents (Elt Ideal)) (i : Fin 10000) (j : Fin 100) :
    val_main_v14 (F := Ideal) x6 (ix2 i j) = vec x6 j := by
  rw [val_main_v14_apply, val_main_v13_apply]
  have e : idx_main_v13 (idx_main_v14 (ix2 i j)) = ix1 j :=
    funext fun a => Fin.ext (by match a with | ⟨0, _⟩ => rfl)
  rw [e]; rfl

/-- Entry (i, j) of the reference's result array is relu(r3 Wo + b) at (i, j), with r3 the third layer's
    relu(A (r2 W3)) and so on down to the features: the reference form over the arguments' entries. -/
theorem ref_value (x0 : (⟨S10000x128, .f32⟩ : BufTy).Contents (Elt Ideal)) (x1 : (⟨S10000x10000, .f32⟩ : BufTy).Contents (Elt Ideal))
    (x2 : (⟨S128x200, .f32⟩ : BufTy).Contents (Elt Ideal)) (x3 : (⟨S200x300, .f32⟩ : BufTy).Contents (Elt Ideal))
    (x4 : (⟨S300x200, .f32⟩ : BufTy).Contents (Elt Ideal)) (x5 : (⟨S200x100, .f32⟩ : BufTy).Contents (Elt Ideal))
    (x6 : (⟨S100, .f32⟩ : BufTy).Contents (Elt Ideal)) (i : Fin 10000) (j : Fin 100) :
    val_main_v17 (F := Ideal) x0 x1 x2 x3 x4 x5 x6 (ix2 i j)
      = Cert.Gcn.refOut (mat x1) (mat x0) (mat x2) (mat x3) (mat x4) (mat x5) (vec x6) i j := by
  rw [val_main_v17_apply, val_main_v16_apply, val_main_cst_2_apply, zero_cst, Ideal.maximumf_def,
    val_main_v15_apply, Ideal.addf_def, v12_eq, v14_eq]
  rfl

end Cert.Gcn.RefValue

end
-- ==== Proof.FiniteInputs.lean ====
/-
  The precondition "every float input is finite" says, at the extended reals, that every entry of every argument
  array is a real number: |x| < +∞ excludes both infinities.
-/
import proofs.«114735_g18906446037451_cont_8to1_851_3_alg».proof.Pre_finite_inputs
import Idealize.ShloMosaic.PureOps.Ideal
import Idealize.ShloMosaic.Lib.ReduceAll
import Idealize.ShloMosaic.Lib.ValueIdx

noncomputable section

namespace Cert.Gcn.Finite

open Idealize.ShloMosaic Cert.Pre_finite_inputs

/-- The shape of a scalar has exactly one index (the empty one). -/
instance : Subsingleton S_.Idx := ⟨fun a b => funext fun d => d.elim0⟩

/-- One entry: if `|x| < +∞` compares true at the extended reals, `x` is a real number. The word
    `0x7F800000` denotes `⊤`; `|x| = max x (-x)` is `⊤` at both infinities, and `⊤ < ⊤` is false. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | coe r => exact ⟨r, rfl⟩
  | top => exact absurd h (by simp [Ideal.cmp])

/-- One array, of any shape: if `jnp.all(|x| < +∞)` (the reduce by `and` over all axes of the entrywise
    comparison against the broadcast `+∞` word) is 1, every entry of `x` is a real number. -/
theorem real_of_all {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  exact real_of_abs_lt_inf (x i) (Host.reduce_andi_all _ _ hr hu _ h i)

/-- If the finiteness predicate of the seven argument arrays is all ones, every entry of each is a real number. -/
theorem real_of_pre [Cert.Pre_finite_inputs.Facts]
    (x0 : FVec Ideal S10000x128 .f32) (x1 : FVec Ideal S10000x10000 .f32) (x2 : FVec Ideal S128x200 .f32)
    (x3 : FVec Ideal S200x300 .f32) (x4 : FVec Ideal S300x200 .f32) (x5 : FVec Ideal S200x100 .f32)
    (x6 : FVec Ideal S100 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨a0, a1⟩, a2⟩, a3⟩, a4⟩, a5⟩, a6⟩ := h0
  exact ⟨real_of_all _ _ _ x0 a0, real_of_all _ _ _ x1 a1, real_of_all _ _ _ x2 a2, real_of_all _ _ _ x3 a3,
    real_of_all _ _ _ x4 a4, real_of_all _ _ _ x5 a5, real_of_all _ _ _ x6 a6⟩

end Cert.Gcn.Finite

end
-- ==== Proof.lean ====
/-
  A three-layer graph convolution: the kernel's program against the reference.

  The reference computes r1 = relu(A (X W1)), r2 = relu(A (r1 W2)), r3 = relu(A (r2 W3)), out = relu(r3 Wo + b).
  The kernel runs three row-blocked regions over the adjacency: layer 1 computes relu((A X) W1ᵖ) and a copy of A,
  layer 2 computes relu((A h1) W2ᵖ) W3ᵖ, layer 3 computes relu(relu(A g2) Woᵖ + bᵖ); the weights are zero-extended
  on the host and the result is cut back to its true 100 columns. On the extended reals a change of float format is
  the identity, so the kernel's bf16 roundings vanish, and on finite inputs — the precondition — the two forms are
  the same real numbers: the padded columns carry zeros and the products re-associate (Proof/GcnAlgebra.lean).
  The kernel program's value is read off its three regions' write-backs (Proof/Region0..2.lean, Proof/Boundaries.lean,
  Proof/HostEnds.lean, Proof/KernelValue.lean), the reference's off its run (Proof/RefValue.lean), finiteness off the
  precondition (Proof/FiniteInputs.lean). Nothing was rewritten by the idealization, so `preserves` is trivial.
-/
import proofs.«114735_g18906446037451_cont_8to1_851_3_alg».proof.Defs
import proofs.«114735_g18906446037451_cont_8to1_851_3_alg».proof.Proof.Gen.Kernel
import proofs.«114735_g18906446037451_cont_8to1_851_3_alg».proof.Proof.Gen.Kernel.Frame
import proofs.«114735_g18906446037451_cont_8to1_851_3_alg».proof.Proof.Gen.KernelIdeal
import proofs.«114735_g18906446037451_cont_8to1_851_3_alg».proof.Proof.Gen.KernelIdeal.Frame
import proofs.«114735_g18906446037451_cont_8to1_851_3_alg».proof.Proof.Gen.ReferenceIdeal
import proofs.«114735_g18906446037451_cont_8to1_851_3_alg».proof.Proof.Gen.ReferenceIdeal.Run
import proofs.«114735_g18906446037451_cont_8to1_851_3_alg».proof.Proof.Gen.ReferenceIdeal.Read
import proofs.«114735_g18906446037451_cont_8to1_851_3_alg».proof.Proof.Gen.Pre_finite_inputs
import proofs.«114735_g18906446037451_cont_8to1_851_3_alg».proof.Proof.KernelRun
import proofs.«114735_g18906446037451_cont_8to1_851_3_alg».proof.Proof.KernelValue
import proofs.«114735_g18906446037451_cont_8to1_851_3_alg».proof.Proof.RefValue
import proofs.«114735_g18906446037451_cont_8to1_851_3_alg».proof.Proof.FiniteInputs
import proofs.«114735_g18906446037451_cont_8to1_851_3_alg».proof.Proof.GcnAlgebra
import proofs.«114735_g18906446037451_cont_8to1_851_3_alg».proof.Proof.GcnView
import Idealize.ShloMosaic.Adequacy
import Idealize.ShloMosaic.Init

noncomputable section

namespace Cert.Proof

open Idealize.ShloMosaic Idealize.ShloMosaic.TcCoe Idealize.ShloMosaic.ValueIdx Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference form of the convolution over the launch arrays: the kernel's by its regions'
    values and the algebra on finite entries, the reference's by its run read entry by entry. -/
theorem algebraic : Cert.algebraic_KernelIdeal_ReferenceIdeal := by
  intro m ρ m' ρ' hpre hagree
  refine ⟨fun c => fun idx : Cert.KernelIdeal.S10000x100.Idx =>
      refOut (mat (m ((c.tc : Thread Cert.KernelIdeal.nD Cert.KernelIdeal.τ).loc Cert.KernelIdeal.main_arg1)))
        (mat (m ((c.tc : Thread Cert.KernelIdeal.nD Cert.KernelIdeal.τ).loc Cert.KernelIdeal.main_arg0)))
        (mat (m ((c.tc : Thread Cert.KernelIdeal.nD Cert.KernelIdeal.τ).loc Cert.KernelIdeal.main_arg2)))
        (mat (m ((c.tc : Thread Cert.KernelIdeal.nD Cert.KernelIdeal.τ).loc Cert.KernelIdeal.main_arg3)))
        (mat (m ((c.tc : Thread Cert.KernelIdeal.nD Cert.KernelIdeal.τ).loc Cert.KernelIdeal.main_arg4)))
        (mat (m ((c.tc : Thread Cert.KernelIdeal.nD Cert.KernelIdeal.τ).loc Cert.KernelIdeal.main_arg5)))
        (vec (m ((c.tc : Thread Cert.KernelIdeal.nD Cert.KernelIdeal.τ).loc Cert.KernelIdeal.main_arg6))) (idx 0) (idx 1), ?_, ?_⟩
  · refine (θ_run Cert.KernelIdeal.defs _ _).mono (fun r h c => ⟨(h c).1.trans ?_, (h c).2⟩) (Cert.Gcn.KRun.run_named (F := Ideal) m ρ)
    obtain ⟨h0, h1, h2, h3, h4, h5, h6⟩ := Cert.Gcn.Finite.real_of_pre _ _ _ _ _ _ _ (hpre c)
    funext idx
    obtain ⟨i, j, rfl⟩ : ∃ (i : Fin 10000) (j : Fin 100), idx = ix2 i j := ⟨idx 0, idx 1, eq_ix2 idx⟩
    rw [Cert.Gcn.KValue.kernel_entry m ρ c i j]
    exact kern3_eq_refOut _ _ _ _ _ _ _ (by decide) (by decide) (by decide) (by decide)
      (fun a b => h1 _) (fun a b => h0 _) (fun a b => h2 _) (fun a b => h3 _) (fun a b => h4 _) (fun a b => h5 _)
      (fun a => h6 _) i j
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2, Cert.ReferenceIdeal.Read.val_main_v17_eq]
    funext idx
    obtain ⟨i, j, rfl⟩ : ∃ (i : Fin 10000) (j : Fin 100), idx = ix2 i j := ⟨idx 0, idx 1, eq_ix2 idx⟩
    exact Cert.Gcn.RefValue.ref_value _ _ _ _ _ _ _ i j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
